-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x16 : Shape := ⟨2, ![1, 16]⟩
abbrev S1x64 : Shape := ⟨2, ![1, 64]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S100000x64 : Shape := ⟨2, ![100000, 64]⟩
abbrev S5000x64 : Shape := ⟨2, ![5000, 64]⟩
abbrev S3300000x64 : Shape := ⟨2, ![3300000, 64]⟩

abbrev nBuf : Space → Nat
  | .hbm => 62
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1x16, .f32⟩
  | .hbm, ⟨32, _⟩ => ⟨S1x64, .f32⟩
  | .hbm, ⟨33, _⟩ => ⟨S100000x16, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000x16, .f32⟩
  | .hbm, ⟨43, _⟩ => ⟨S_, .f32⟩
  | .hbm, ⟨44, _⟩ => ⟨S100000x16, .f32⟩
  | .hbm, ⟨45, _⟩ => ⟨S3300000x1, .i32⟩
  | .hbm, ⟨46, _⟩ => ⟨S100000x16, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  shapeCasts_S16_S1x16 : S16.ShapeCasts S1x16
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x64_S16x64_0_0 : ∀ a, (![0, 0] : Fin 2 → Nat) a + S16x64.size a ≤ S16x64.size a
  h_S16x64 : 0 < S16x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GcnSpec.lean ====
/-
  Two graph-convolution layers, index by index, on the extended reals.

  The graph has 100000 nodes and 3300000 edges (the given edges followed by one self loop per node). Each edge carries a
  target index and a source index, 32-bit words laid out as a 3300000 x 1 column. An edge POINTS AT node n when its target
  index, read as a signed number, is n (an index that names no node points at nothing); the node an index column NAMES for an
  edge is the index read signed and clamped into [0, 99999] (what a gather on the host reads). `d` is the per-node scale
  (the inverse square root of the in-degree, or 0).

  One layer maps node features M (100000 x F) to  out[n, f] = sum over the edges e pointing at n of
  d[src e] * d[n] * M[src e, f], then adds a bias and applies a nonlinearity. The two spellings below differ in where the
  factor d[n] stands:
  • SCALED FORM (`outK`): the rows are scaled first, S[m, f] = M[m, f] * d[m]; the scaled rows are summed over the edges
    pointing at n; the sum is scaled by d[n] afterwards.
  • EDGE-NORMALISED FORM (`outR`): each edge carries the weight d[src e] * d[tgt e], tgt e the node the clamped (and, for a
    negative index, wrapped) target index names; each gathered row is multiplied by its edge's weight and the products are
    summed over the edges pointing at n.
  For an edge that points at n the clamped target is n itself, so the two agree as soon as d[n] may be moved across the sum,
  which on the extended reals needs every term to be a real number (Bridge).
-/
import Idealize.ShloMosaic.Lib.ValueIdx
import Idealize.ShloMosaic.PureOps.Ideal

noncomputable section

namespace Gcn

open Idealize.ShloMosaic Idealize.ShloMosaic.ValueIdx

/-- A function of a row and a column as an array over a two-axis shape. -/
def arr2 {a b : Nat} (g : Fin a → Fin b → EReal) : (⟨2, ![a, b]⟩ : Shape).Idx → EReal := fun i => g (i 0) (i 1)

@[simp] theorem arr2_ix2 {a b : Nat} (g : Fin a → Fin b → EReal) (p : Fin a) (q : Fin b) : arr2 g (ix2 p q) = g p q := rfl

/-- The node an index column names for edge `e`: the index read signed and clamped into the node range. -/
abbrev src (si : IVec ⟨2, ![3300000, 1]⟩ 32) (e : Fin 3300000) : Fin 100000 :=
  ⟨min (si (ix2 e (0 : Fin 1))).toInt.toNat (100000 - 1), by omega⟩

/-- The sum, over the edges pointing at node `n`, of column `f` of `M` at the row the edge's source index names. -/
def seg {F : Nat} (ti si : IVec ⟨2, ![3300000, 1]⟩ 32) (M : (⟨2, ![100000, F]⟩ : Shape).Idx → EReal)
    (n : Fin 100000) (f : Fin F) : EReal :=
  ∑ e : Fin 3300000, if (ti (ix2 e (0 : Fin 1))).toInt = (n.val : ℤ) then M (ix2 (src si e) f) else 0

/-- The plain matrix product at (r, c). -/
def mm {M K P : Nat} (A : (⟨2, ![M, K]⟩ : Shape).Idx → EReal) (B : (⟨2, ![K, P]⟩ : Shape).Idx → EReal)
    (r : Fin M) (c : Fin P) : EReal :=
  ∑ k : Fin K, A (ix2 r k) * B (ix2 k c)

variable (x : (⟨2, ![100000, 128]⟩ : Shape).Idx → EReal) (w1 : (⟨2, ![128, 16]⟩ : Shape).Idx → EReal)
  (b1 : (⟨1, ![16]⟩ : Shape).Idx → EReal) (w2 : (⟨2, ![16, 64]⟩ : Shape).Idx → EReal) (b2 : (⟨1, ![64]⟩ : Shape).Idx → EReal)
  (d : (⟨1, ![100000]⟩ : Shape).Idx → EReal) (ti si ci : IVec ⟨2, ![3300000, 1]⟩ 32)

/-! ## The scaled form -/

/-- Layer 1's transformed features, each row scaled by its node's `d`. -/
def h1s (n : Fin 100000) (f : Fin 16) : EReal := mm x w1 n f * d (ix1 n)

/-- Their sum over the edges pointing at `n`. -/
def a1k (n : Fin 100000) (f : Fin 16) : EReal := seg ti si (arr2 (h1s x w1 d)) n f

/-- Layer 1's output: the sum scaled by `d[n]`, plus the bias, rectified. -/
def hk (n : Fin 100000) (f : Fin 16) : EReal := max (a1k x w1 d ti si n f * d (ix1 n) + b1 (ix1 f)) 0

/-- Layer 2's transformed features, each row scaled by its node's `d`. -/
def h2s (n : Fin 100000) (p : Fin 64) : EReal := mm (arr2 (hk x w1 b1 d ti si)) w2 n p * d (ix1 n)

/-- Their sum over the edges pointing at `n`. -/
def a2k (n : Fin 100000) (p : Fin 64) : EReal := seg ti si (arr2 (h2s x w1 b1 w2 d ti si)) n p

/-- The network's output in the scaled form: the logistic function of the scaled sum plus the bias. -/
def outK (n : Fin 100000) (p : Fin 64) : EReal :=
  Ideal.logistic (a2k x w1 b1 w2 d ti si n p * d (ix1 n) + b2 (ix1 p))

/-! ## The edge-normalised form -/

/-- An edge's weight: `d` at its source node times `d` at the node its (wrapped, clamped) target index names. -/
def nrm (e : Fin 3300000) : EReal := d (ix1 (src si e)) * d (ix1 (src ci e))

/-- Layer 1's weighted sum over the edges pointing at `n`. -/
def a1r (n : Fin 100000) (f : Fin 16) : EReal :=
  ∑ e : Fin 3300000, if (ti (ix2 e (0 : Fin 1))).toInt = (n.val : ℤ) then mm x w1 (src si e) f * nrm d si ci e else 0

/-- Layer 1's output: the weighted sum plus the bias, rectified. -/
def hr (n : Fin 100000) (f : Fin 16) : EReal := max (a1r x w1 d ti si ci n f + b1 (ix1 f)) 0

/-- Layer 2's weighted sum over the edges pointing at `n`. -/
def a2r (n : Fin 100000) (p : Fin 64) : EReal :=
  ∑ e : Fin 3300000, if (ti (ix2 e (0 : Fin 1))).toInt = (n.val : ℤ)
    then mm (arr2 (hr x w1 b1 d ti si ci)) w2 (src si e) p * nrm d si ci e else 0

/-- The network's output in the edge-normalised form. -/
def outR (n : Fin 100000) (p : Fin 64) : EReal := Ideal.logistic (a2r x w1 b1 w2 d ti si ci n p + b2 (ix1 p))

end Gcn

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibGatherVec.lean ====
/-
  A vector gather on the host, read at an index.

  Reading a vector of N values at E positions — `x[idx]` for a flat array `x` and E integer positions laid out E×1 — gives a
  vector of E values. Entry e of the result is the vector's entry at the position idx[e] names, the position read as a
  SIGNED number and CLAMPED into [0, N − 1]: the host's gather clamps every start index into the operand, so a position
  below 0 reads entry 0 and a position past the end reads entry N − 1; no position reads nothing.
  The statement holds for any element type, since a gather only moves elements.
-/
import Idealize.ShloMosaic.Lib.ValueIdx

namespace GatherVec

open Idealize.ShloMosaic Idealize.ShloMosaic.ValueIdx

variable {α : Type} {N E w : Nat}

/-- The dimension numbers of a gather from a vector of N entries by E×1 start indices into a vector of E entries:
    no offset axis, the operand's one axis collapsed, slices of one entry. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF (⟨1, ![N]⟩ : Shape) ⟨2, ![E, 1]⟩ ⟨1, ![E]⟩ [] [0] [] [0] [] 1 ![1])

/-- THE VECTOR GATHER READ AT e: the operand at the entry idx[e] names — read signed, clamped into the operand.
    The operand's one coordinate is start + batch + offset: there is no batching axis and the one axis is collapsed, so
    the last two are 0, and the start is the index word clamped to [0, N − 1] (the slice has one entry). -/
theorem gather_vec_apply (hN : 0 < N) (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
      + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  -- the start index of result entry e is read at (e, 0): e on the batch axis, component 0 on the index vector's axis
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherVec
-- ==== Proof.LibCountScatter.lean ====
/-
  A vector scatter-add on the host, read at an index: counting the edges into each node.

  Scatter-adding a vector of E values into a vector of N entries by E row numbers adds, to entry n, the values whose row
  number — read signed, not clamped — is n; a value whose row number is no entry of the operand adds nothing. With every
  value 1 and the operand 0 this counts the edges into each node.

  The same number is a column of a ROW scatter-add: if an E×F' matrix of updates carries the values in one of its columns,
  scatter-adding its rows by the same row numbers leaves, in that column of row n, the same sum. So a column of ones laid
  beside the messages and scatter-added once gives the per-node sums and the per-node count together.
  Every statement is at the ideal values (floats are extended reals); none needs a finiteness hypothesis.
-/
import Idealize.ShloMosaic.Lib.ValueIdx
import Idealize.ShloMosaic.PureOps.Ideal.Laws
import proofs.«161874_j27427661152768_2_alg».proof.Proof.LibSparseRows

noncomputable section

namespace ScatterVec

open Idealize.ShloMosaic Idealize.ShloMosaic.ValueIdx

variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a vector of N entries from E×1 indices and E updates. -/
abbrev vecDims (N E : Nat) (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF (⟨1, ![N]⟩ : Shape) ⟨2, ![E, 1]⟩ ⟨1, ![E]⟩ [] [0] [0] 1)

/-- An update is a single value: it has no window coordinate. -/
theorem window_entry (j : (⟨1, ![E]⟩ : Shape).Idx) : (vecDims N E wf).window j 0 = 0 := by
  have h : (0 : Fin 1) ∉ (vecDims N E wf).sKept :=
    (show (0 : Fin 1) ∉ (List.finRange 1).filter (· ∉ [(0 : Fin 1)]) by decide)
  unfold ScatterDims.window
  rw [dif_neg h]

/-- It lands on the entry its index names, read signed. -/
theorem start_entry (j : (⟨1, ![E]⟩ : Shape).Idx) (idx : IVec ⟨2, ![E, 1]⟩ w) :
    (vecDims N E wf).start j idx 0 = (idx (ix2 (j 0 : Fin E) (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- Update `j` lands on the operand's entry n exactly when its index, read signed, is n. -/
theorem resultIdx_eq_some_iff (j : (⟨1, ![E]⟩ : Shape).Idx) (idx : IVec ⟨2, ![E, 1]⟩ w) (n : Fin N) :
    (vecDims N E wf).resultIdx? j idx = some (ix1 n) ↔ (idx (ix2 (j 0 : Fin E) (0 : Fin 1))).toInt = (n.val : ℤ) := by
  unfold ScatterDims.resultIdx?
  constructor
  · intro h
    split at h
    · rename_i hr
      have he := Option.some.inj h
      have e0 := congrArg (fun g => (g 0).val) he
      simp only [start_entry, window_entry] at e0
      have h0 := hr 0
      simp only [start_entry, window_entry] at h0
      have : ((idx (ix2 (j 0 : Fin E) (0 : Fin 1))).toInt + 0).toNat = n.val := e0
      omega
    · exact absurd h (by simp)
  · intro h0
    have hn := n.isLt
    have s0 : (vecDims N E wf).start j idx 0 + ((vecDims N E wf).window j 0 : ℤ) = (n.val : ℤ) := by
      rw [start_entry, window_entry, h0]; omega
    have hr : ∀ a, 0 ≤ (vecDims N E wf).start j idx a + (vecDims N E wf).window j a
        ∧ (vecDims N E wf).start j idx a + (vecDims N E wf).window j a < (⟨1, ![N]⟩ : Shape).size a := fun a =>
      match a with
      | ⟨0, _⟩ => (show 0 ≤ (vecDims N E wf).start j idx 0 + ((vecDims N E wf).window j 0 : ℤ)
          ∧ (vecDims N E wf).start j idx 0 + ((vecDims N E wf).window j 0 : ℤ) < ((N : ℕ) : ℤ) by rw [s0]; omega)
    rw [dif_pos hr]
    congr 1
    funext a
    refine Fin.ext ?_
    match a with
    | ⟨0, _⟩ =>
      show ((vecDims N E wf).start j idx 0 + ((vecDims N E wf).window j 0 : ℤ)).toNat = n.val
      rw [s0]; omega

/-- THE VECTOR SCATTER-ADD READ AT n: the operand's entry plus the sum of the updates whose index is n. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  by_cases hc : (idx (ix2 e (0 : Fin 1))).toInt = (n.val : ℤ)
  · rw [if_pos hc, if_pos ((resultIdx_eq_some_iff wf (ix1 e) idx n).mpr hc)]
  · rw [if_neg hc, if_neg fun h => hc ((resultIdx_eq_some_iff wf (ix1 e) idx n).mp h)]

/-- The same of the host operation at the ideal instance, as a printed program spells it. -/
theorem scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e : Fin E, if (idx (ix2 e (0 : Fin 1))).toInt = (n.val : ℤ) then upd (ix1 e) else 0 :=
  hostScatterAdd_vec_apply wf x idx upd n

/-- A COLUMN OF A ROW SCATTER IS A VECTOR SCATTER: a row scatter-add of E×F' updates by the same indices, read in a
    column where its operand agrees with the vector operand and its updates carry the vector's updates, is the vector
    scatter-add. -/
theorem hostScatterAdd_vec_eq_col {F' : Nat}
    (wf' : ScatterDims.WF (⟨2, ![N, F']⟩ : Shape) ⟨2, ![E, 1]⟩ ⟨2, ![E, F']⟩ [1] [0] [0] 1)
    (x : (⟨1, ![N]⟩ : Shape).Idx → EReal) (x' : (⟨2, ![N, F']⟩ : Shape).Idx → EReal) (idx : IVec ⟨2, ![E, 1]⟩ w)
    (upd : (⟨1, ![E]⟩ : Shape).Idx → EReal) (upd' : (⟨2, ![E, F']⟩ : Shape).Idx → EReal) (f' : Fin F')
    (hx : ∀ n : Fin N, x (ix1 n) = x' (ix2 n f')) (hu : ∀ e : Fin E, upd (ix1 e) = upd' (ix2 e f')) (n : Fin N) :
    Ideal.hostScatterAdd (vecDims N E wf) x idx upd (ix1 n)
      = Ideal.hostScatterAdd (ScatterRows.rowDims N E F' wf') x' idx upd' (ix2 n f') := by
  rw [hostScatterAdd_vec_apply wf, ScatterRows.hostScatterAdd_rows_apply wf', hx n]
  congr 1
  exact Finset.sum_congr rfl fun e _ => by rw [hu e]

end ScatterVec

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.RefValue.lean ====
/-
  The reference program's result, index by index, is the edge-normalised form of the two graph-convolution layers.

  The reference computes, for 100000 nodes and 3300000 edges (the given edges followed by one self loop per node):
  the in-degree of every node as a scatter-add of ones by the target column; the per-node scale d = 1/sqrt(max(deg, 1))
  where deg > 0 and 0 elsewhere; the edge weight d[src e] * d[tgt e], both read by a gather through the wrapped index
  columns; and then twice: a dense product, a row gather by the source column, a product with the edge weight laid along
  the columns, a row scatter-add by the target column into zeros, plus a bias; a rectifier after the first layer and
  1 / (1 + exp(-v)) after the second. Read at an index each of these is a closed formula: a gather reads the operand at the
  clamped index, a scatter-add into zeros is the sum over the edges whose target is the row, a broadcast repeats its operand,
  and 1 / (1 + exp(-v)) is the logistic function. Chaining them gives Gcn.outR.

  Two further facts about the index columns and the scale: an edge whose target index, read signed, is the node n has n as
  its wrapped and clamped target as well (the index is not negative, so it is not wrapped, and it is below 100000, so it is
  not clamped); and the scale is a real number at every node (the degree is a finite sum of ones, max(deg, 1) is a real that
  is at least 1, so its inverse square root is real; the other branch is 0).
-/
import proofs.«161874_j27427661152768_2_alg».proof.Proof.RefRead
import proofs.«161874_j27427661152768_2_alg».proof.Proof.GcnSpec
import proofs.«161874_j27427661152768_2_alg».proof.Proof.LibSparseRows
import proofs.«161874_j27427661152768_2_alg».proof.Proof.LibGatherVec
import proofs.«161874_j27427661152768_2_alg».proof.Proof.LibCountScatter
import proofs.«161874_j27427661152768_2_alg».proof.Proof.LibPlainProduct
import proofs.«161874_j27427661152768_2_alg».proof.Proof.LibMoments
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Idealize.ShloMosaic Idealize.ShloMosaic.ValueIdx
  Cert.LibMoments
open Facts₀

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))
  (x4 : (⟨S16x64, .f32⟩ : BufTy).Contents (Elt Ideal)) (x5 : (⟨S64, .f32⟩ : BufTy).Contents (Elt Ideal))

/-! ## The two float constants -/

/-- The pattern of all zero bits is the real 0. -/
theorem zero_const : FloatOps.ofBits (F := Ideal) .f32 0x00000000#32 = (0 : EReal) := Ideal.ofBits_zero_f32

/-- The pattern 0x3F800000 is the real 1. -/
theorem one_const : FloatOps.ofBits (F := Ideal) .f32 0x3F800000#32 = (1 : EReal) :=
  IdealRules.sign_bit.ideal_onePat .f32

/-! ## The index columns

The target column is built three times and the wrapped source column three times, each time by the same operations on
the same operands: the copies are equal. -/

theorem v9_eq : val_main_v9 (F := Ideal) x1 = val_main_v44 (F := Ideal) x1 := rfl
theorem v62_eq : val_main_v62 (F := Ideal) x1 = val_main_v44 (F := Ideal) x1 := rfl
theorem v22_eq : val_main_v22 (F := Ideal) x1 = val_main_v38 (F := Ideal) x1 := rfl
theorem v56_eq : val_main_v56 (F := Ideal) x1 = val_main_v38 (F := Ideal) x1 := rfl

/-! ## The edge weight -/

/-- The scale gathered by the source column, at edge e: the scale of the node the column names. -/
theorem v23_apply (e : Fin 3300000) :
    val_main_v23 (F := Ideal) x1 (ix1 e)
      = val_main_v16 (F := Ideal) x1 (ix1 (Gcn.src (val_main_v38 (F := Ideal) x1) e)) := by
  unfold val_main_v23
  rw [v22_eq]
  exact GatherVec.gather_vec_apply (N := 100000) (E := 3300000)
    Facts₀.gather_S100000_S3300000x1_S3300000_n_0_n_n_0_1_1_wf (by omega) _ _ e

/-- The scale gathered by the wrapped target column, at edge e. -/
theorem v30_apply (e : Fin 3300000) :
    val_main_v30 (F := Ideal) x1 (ix1 e)
      = val_main_v16 (F := Ideal) x1 (ix1 (Gcn.src (val_main_v29 (F := Ideal) x1) e)) := by
  unfold val_main_v30
  exact GatherVec.gather_vec_apply (N := 100000) (E := 3300000)
    Facts₀.gather_S100000_S3300000x1_S3300000_n_0_n_n_0_1_1_wf (by omega) _ _ e

/-- The edge weight at edge e is the product of the two scales. -/
theorem v31_apply (e : Fin 3300000) :
    val_main_v31 (F := Ideal) x1 (ix1 e)
      = Gcn.nrm (val_main_v16 (F := Ideal) x1) (val_main_v38 (F := Ideal) x1) (val_main_v29 (F := Ideal) x1) e := by
  rw [val_main_v31_apply, v23_apply, v30_apply]
  rfl

/-- The weight laid along 16 columns: entry (e, f) is the weight of edge e. -/
theorem v41_apply (e : Fin 3300000) (f : Fin 16) :
    val_main_v41 (F := Ideal) x1 (ix2 e f) = val_main_v31 (F := Ideal) x1 (ix1 e) := by
  rw [val_main_v41_apply, val_main_v40_apply]
  refine congrArg _ (funext fun a => ?_)
  match a with
  | ⟨0, _⟩ => rfl

/-- The weight laid along 64 columns: entry (e, p) is the weight of edge e. -/
theorem v59_apply (e : Fin 3300000) (p : Fin 64) :
    val_main_v59 (F := Ideal) x1 (ix2 e p) = val_main_v31 (F := Ideal) x1 (ix1 e) := by
  rw [val_main_v59_apply, val_main_v58_apply]
  refine congrArg _ (funext fun a => ?_)
  match a with
  | ⟨0, _⟩ => rfl

/-! ## Layer 1 -/

/-- The first dense product at (n, f). -/
theorem v32_apply (n : Fin 100000) (f : Fin 16) :
    val_main_v32 (F := Ideal) x0 x2 (ix2 n f) = Gcn.mm x0 x2 n f := by
  unfold val_main_v32
  exact PlainProduct.dotGeneral_apply (M := 100000) (K := 128) (P := 16)
    Facts₀.dot_S100000x128_S128x16_S100000x16_1_0_0_1_n_n_wf none x0 x2 n f

/-- Its rows gathered by the source column, at (e, f). -/
theorem v39_apply (e : Fin 3300000) (f : Fin 16) :
    val_main_v39 (F := Ideal) x0 x1 x2 (ix2 e f)
      = Gcn.mm x0 x2 (Gcn.src (val_main_v38 (F := Ideal) x1) e) f := by
  unfold val_main_v39
  refine (GatherRows.gather_rows_apply (N := 100000) (E := 3300000) (F := 16)
    Facts₀.gather_S100000x16_S3300000x1_S3300000x16_1_0_n_n_0_1_116_wf (by omega) _ _ e f).trans ?_
  exact v32_apply x0 x2 _ f

/-- The weighted rows scatter-added by the target column into zeros, at (n, f): layer 1's weighted sum. -/
theorem v45_apply (n : Fin 100000) (f : Fin 16) :
    val_main_v45 (F := Ideal) x0 x1 x2 (ix2 n f)
      = Gcn.a1r x0 x2 (val_main_v16 (F := Ideal) x1) (val_main_v44 (F := Ideal) x1) (val_main_v38 (F := Ideal) x1)
          (val_main_v29 (F := Ideal) x1) n f := by
  unfold val_main_v45
  refine (ScatterRows.scatterAdd_rows_apply (N := 100000) (E := 3300000) (F := 16)
    Facts₀.scatter_S100000x16_S3300000x1_S3300000x16_1_0_0_1_wf _ _ _ n f).trans ?_
  rw [val_main_v43_apply, val_main_cst_9_apply, zero_const, zero_add]
  unfold Gcn.a1r
  refine Finset.sum_congr rfl fun e _ => ?_
  rw [val_main_v42_apply, v39_apply, v41_apply, v31_apply]
  rfl

/-- The bias laid along the rows: entry (n, f) is the bias of column f. -/
theorem v47_apply (n : Fin 100000) (f : Fin 16) : val_main_v47 (F := Ideal) x3 (ix2 n f) = x3 (ix1 f) := by
  rw [val_main_v47_apply, val_main_v46_apply]
  refine congrArg _ (funext fun a => ?_)
  match a with
  | ⟨0, _⟩ => rfl

/-- Layer 1's output at (n, f). -/
theorem v49_apply (n : Fin 100000) (f : Fin 16) :
    val_main_v49 (F := Ideal) x0 x1 x2 x3 (ix2 n f)
      = Gcn.hr x0 x2 x3 (val_main_v16 (F := Ideal) x1) (val_main_v44 (F := Ideal) x1) (val_main_v38 (F := Ideal) x1)
          (val_main_v29 (F := Ideal) x1) n f := by
  rw [val_main_v49_apply, val_main_v48_apply, v45_apply, v47_apply, val_main_call1_v0_apply, val_main_call1_cst_apply,
    zero_const]
  rfl

/-- Layer 1's output as an array. -/
theorem v49_eq :
    val_main_v49 (F := Ideal) x0 x1 x2 x3
      = Gcn.arr2 (Gcn.hr x0 x2 x3 (val_main_v16 (F := Ideal) x1) (val_main_v44 (F := Ideal) x1)
          (val_main_v38 (F := Ideal) x1) (val_main_v29 (F := Ideal) x1)) := by
  funext i
  obtain ⟨a, b, rfl⟩ : ∃ (a : Fin 100000) (b : Fin 16), i = ix2 a b := ⟨i 0, i 1, eq_ix2 i⟩
  exact v49_apply x0 x1 x2 x3 a b

/-! ## Layer 2 -/

/-- The second dense product at (n, p). -/
theorem v50_apply (n : Fin 100000) (p : Fin 64) :
    val_main_v50 (F := Ideal) x0 x1 x2 x3 x4 (ix2 n p)
      = Gcn.mm (Gcn.arr2 (Gcn.hr x0 x2 x3 (val_main_v16 (F := Ideal) x1) (val_main_v44 (F := Ideal) x1)
          (val_main_v38 (F := Ideal) x1) (val_main_v29 (F := Ideal) x1))) x4 n p := by
  unfold val_main_v50
  rw [v49_eq]
  exact PlainProduct.dotGeneral_apply (M := 100000) (K := 16) (P := 64)
    Facts₀.dot_S100000x16_S16x64_S100000x64_1_0_0_1_n_n_wf none _ x4 n p

/-- Its rows gathered by the source column, at (e, p). -/
theorem v57_apply (e : Fin 3300000) (p : Fin 64) :
    val_main_v57 (F := Ideal) x0 x1 x2 x3 x4 (ix2 e p)
      = Gcn.mm (Gcn.arr2 (Gcn.hr x0 x2 x3 (val_main_v16 (F := Ideal) x1) (val_main_v44 (F := Ideal) x1)
          (val_main_v38 (F := Ideal) x1) (val_main_v29 (F := Ideal) x1))) x4
          (Gcn.src (val_main_v38 (F := Ideal) x1) e) p := by
  unfold val_main_v57
  rw [v56_eq]
  refine (GatherRows.gather_rows_apply (N := 100000) (E := 3300000) (F := 64)
    Facts₀.gather_S100000x64_S3300000x1_S3300000x64_1_0_n_n_0_1_164_wf (by omega) _ _ e p).trans ?_
  exact v50_apply x0 x1 x2 x3 x4 _ p

/-- The weighted rows scatter-added by the target column into zeros, at (n, p): layer 2's weighted sum. -/
theorem v63_apply (n : Fin 100000) (p : Fin 64) :
    val_main_v63 (F := Ideal) x0 x1 x2 x3 x4 (ix2 n p)
      = Gcn.a2r x0 x2 x3 x4 (val_main_v16 (F := Ideal) x1) (val_main_v44 (F := Ideal) x1) (val_main_v38 (F := Ideal) x1)
          (val_main_v29 (F := Ideal) x1) n p := by
  unfold val_main_v63
  rw [v62_eq]
  refine (ScatterRows.scatterAdd_rows_apply (N := 100000) (E := 3300000) (F := 64)
    Facts₀.scatter_S100000x64_S3300000x1_S3300000x64_1_0_0_1_wf _ _ _ n p).trans ?_
  rw [val_main_v61_apply, val_main_cst_12_apply, zero_const, zero_add]
  unfold Gcn.a2r
  refine Finset.sum_congr rfl fun e _ => ?_
  rw [val_main_v60_apply, v57_apply, v59_apply, v31_apply]
  rfl

/-- The bias laid along the rows: entry (n, p) is the bias of column p. -/
theorem v65_apply (n : Fin 100000) (p : Fin 64) : val_main_v65 (F := Ideal) x5 (ix2 n p) = x5 (ix1 p) := by
  rw [val_main_v65_apply, val_main_v64_apply]
  refine congrArg _ (funext fun a => ?_)
  match a with
  | ⟨0, _⟩ => rfl

/-- THE RESULT AT (n, p): the logistic function of layer 2's weighted sum plus the bias. -/
theorem ref_out (n : Fin 100000) (p : Fin 64) :
    val_main_v72 (F := Ideal) x0 x1 x2 x3 x4 x5 (ix2 n p)
      = Gcn.outR x0 x2 x3 x4 x5 (val_main_v16 (F := Ideal) x1) (val_main_v44 (F := Ideal) x1)
          (val_main_v38 (F := Ideal) x1) (val_main_v29 (F := Ideal) x1) n p := by
  have h71 : val_main_v71 (F := Ideal) (ix2 n p) = (1 : EReal) := by
    rw [val_main_v71_apply, val_main_cst_14_apply, one_const]
  have h69 : val_main_v69 (F := Ideal) (ix2 n p) = (1 : EReal) := by
    rw [val_main_v69_apply, val_main_cst_13_apply, one_const]
  rw [val_main_v72_apply, val_main_v70_apply, val_main_v68_apply, val_main_v67_apply, val_main_v66_apply, h71, h69,
    v63_apply, v65_apply]
  simp only [Ideal.hostDivf_def, Ideal.addf_def, Ideal.hostUnary_exp_def, Ideal.hostNegf_def, Ideal.negf_def]
  unfold Gcn.outR Ideal.logistic
  rfl

/-! ## The target column -/

/-- An edge whose target index, read signed, is the node n: its wrapped and clamped target is n too. The index is not
    negative, so the wrap leaves it; it is below 100000, so the clamp leaves it. -/
theorem tgt_of_hit (e : Fin 3300000) (n : Fin 100000)
    (h : (val_main_v44 (F := Ideal) x1 (ix2 e (0 : Fin 1))).toInt = (n.val : ℤ)) :
    Gcn.src (val_main_v29 (F := Ideal) x1) e = n := by
  rw [val_main_v44_apply] at h
  have hlt : ¬ ((n.val : ℤ) < 0) := by omega
  have hs : IntOp.cmpi .slt (val_main_v6 (F := Ideal) x1 (idx_main_v44 (ix2 e (0 : Fin 1)))) (0#32 : BitVec 32) = 0#1 := by
    show BitVec.ofBool ((val_main_v6 (F := Ideal) x1 (idx_main_v44 (ix2 e (0 : Fin 1)))).slt 0#32) = 0#1
    rw [BitVec.slt_eq_decide, h, BitVec.toInt_zero, decide_eq_false hlt]
    rfl
  have h29 : val_main_v29 (F := Ideal) x1 (ix2 e (0 : Fin 1))
      = val_main_v6 (F := Ideal) x1 (idx_main_v44 (ix2 e (0 : Fin 1))) := by
    rw [val_main_v29_apply, val_main_v28_apply, val_main_v25_apply, val_main_v24_apply, val_main_c_5_apply]
    show Scalar.select (IntOp.cmpi .slt (val_main_v6 (F := Ideal) x1 (idx_main_v44 (ix2 e (0 : Fin 1)))) (0#32 : BitVec 32)) _
      (val_main_v6 (F := Ideal) x1 (idx_main_v44 (ix2 e (0 : Fin 1)))) = _
    rw [hs, select_zero]
  apply Fin.ext
  show min (val_main_v29 (F := Ideal) x1 (ix2 e (0 : Fin 1))).toInt.toNat (100000 - 1) = n.val
  rw [h29, h]
  have := n.isLt
  omega

/-! ## The scale is real -/

/-- The degree of node n: ones scatter-added by the target column into zeros, so the number of edges pointing at n. -/
theorem v10_apply (n : Fin 100000) :
    val_main_v10 (F := Ideal) x1 (ix1 n)
      = ∑ e : Fin 3300000,
          if (val_main_v44 (F := Ideal) x1 (ix2 e (0 : Fin 1))).toInt = (n.val : ℤ) then (1 : EReal) else 0 := by
  unfold val_main_v10
  rw [v9_eq]
  refine (ScatterVec.scatterAdd_vec_apply (N := 100000) (E := 3300000)
    Facts₀.scatter_S100000_S3300000x1_S3300000_n_0_0_1_wf _ _ _ n).trans ?_
  rw [val_main_v8_apply, val_main_cst_0_apply, zero_const, zero_add]
  refine Finset.sum_congr rfl fun e _ => ?_
  rw [val_main_v7_apply, val_main_cst_apply, one_const]

/-- The scale is a real number at every node: the degree is a sum of ones into zeros, so real; where it is positive the
    scale is the inverse square root of a real that is at least 1; elsewhere it is 0. -/
theorem dis_real (i : S100000.Idx) : IsReal (val_main_v16 (F := Ideal) x1 i) := by
  have hdeg : IsReal (val_main_v10 (F := Ideal) x1 i) := by
    obtain ⟨n, rfl⟩ : ∃ n : Fin 100000, i = ix1 n := ⟨i 0, eq_ix1 i⟩
    rw [v10_apply]
    refine IsReal.fintype_sum _ fun e => ?_
    split
    · exact IsReal.one
    · exact IsReal.zero
  rw [val_main_v16_apply]
  by_cases hc : val_main_v12 (F := Ideal) x1 i = 1#1
  · have h13 : val_main_v13 (F := Ideal) i = (1 : EReal) := by
      rw [val_main_v13_apply, val_main_cst_2_apply, one_const]
    rw [hc, select_one, val_main_v15_apply, val_main_v14_apply, h13, Ideal.hostUnary_rsqrt_def, Ideal.maximumf_def]
    exact IsReal.rsqrt (IsReal.max hdeg IsReal.one) (le_max_right _ _)
  · rw [eq_zero_of_ne_one hc, select_zero, val_main_call0_v1_apply, val_main_call0_v0_apply, val_main_cst_3_apply,
      zero_const]
    exact IsReal.zero

end Cert.ReferenceIdeal.RefValue

end
-- ==== Proof.KRun.lean ====
/-
  The idealized kernel program's run, with its result named.

  The program is three pipelined regions among stretches of host operations. Every weakly fair execution terminates without
  a fault, the six argument arrays end as launched, and the result array ends at the contents the last region leaves in it:
  the fold of the buffer contents through the eight segments (`Gen.W8`), read at the result buffer. The statement is the
  generated frame's with that one conjunct added; the thread state after the last segment already holds every unscoped
  buffer at the fold's contents, so the result buffer is read off it exactly as the arguments are.
-/
import proofs.«161874_j27427661152768_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, the result array at the last boundary's contents, the arguments as launched. -/
theorem run_out : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.GcnRun

end
-- ==== Proof.KHost.lean ====
/-
  The host operations of the kernel program, read buffer by buffer.

  The program's host side runs in five stretches: the graph bookkeeping (the edge lists with self loops, the in-degree
  count, the scale `d` = inverse square root of the degree where it is positive), a selection, three reshapes, and — after
  the first and after the second pipelined region — a gather of the region's rows by the (wrapped) source indices followed by
  a scatter-add by the target indices. From ANY contents `W` of the buffers when a stretch starts, each buffer a later
  step reads holds, after the stretch, a fixed function of a few buffers of `W`; a buffer no operation of the stretch
  writes keeps its contents. The bookkeeping is the same sequence of operations as the reference program's, so its results
  are the reference's terms of the edge array.
-/
import proofs.«161874_j27427661152768_2_alg».proof.Proof.Gen.KernelIdeal.Launch
import proofs.«161874_j27427661152768_2_alg».proof.Proof.RefRead
import Idealize.ShloMosaic.Lib.StableHlo.Run

noncomputable section

namespace Cert.KernelIdeal.GcnHost

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v12 val_main_v15 val_main_v16 val_main_cst_3 val_main_v38 val_main_v44)

/-- No operation of the stretch writes the buffer, so it keeps its contents. -/
macro "keeps" : tactic =>
  `(tactic| exact StableHlo.after_of_forall_not_mem _ _ (List.forall_iff_forall_mem.mp (by
      simp only [hostOps0, hostOps0_1, hostOps0_2, hostOps1, hostOps2, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

variable (W : Valuation τ sig (Elt Ideal))

/-- The target-index column: the target indices laid out 3300000 x 1. -/
def tgtCol (colv : S3300000.Idx → BitVec 32) : S3300000x1.Idx → BitVec 32 :=
  broadcastInDim S3300000x1 ![0] Facts₀.bcast_S3300000_S3300000x1_0 colv

/-- The source-index column: a negative source index wrapped by the node count, laid out 3300000 x 1. -/
def wrapCol (rowv : S3300000.Idx → BitVec 32) : S3300000x1.Idx → BitVec 32 :=
  broadcastInDim S3300000x1 ![0] Facts₀.bcast_S3300000_S3300000x1_0
    (select (cmpi .slt rowv (broadcastInDim S3300000 ![] Facts₀.bcast_S_S3300000 (constantI S_ 32 0#32)))
      (addi rowv (broadcastInDim S3300000 ![] Facts₀.bcast_S_S3300000 (constantI S_ 32 100000#32))) rowv)

/-! ## The bookkeeping stretch -/

set_option maxHeartbeats 1000000 in
theorem s0_v3 : after (hostOps0 (F := Ideal)) W (Proc.devRef .tc main_v3) = val_main_v3 (F := Ideal) (W (Proc.devRef .tc main_arg1)) := by
  after_results
  rfl

set_option maxHeartbeats 1000000 in
theorem s0_v6 : after (hostOps0 (F := Ideal)) W (Proc.devRef .tc main_v6) = val_main_v6 (F := Ideal) (W (Proc.devRef .tc main_arg1)) := by
  after_results
  rfl

set_option maxHeartbeats 1000000 in
theorem s0_v12 : after (hostOps0 (F := Ideal)) W (Proc.devRef .tc main_v12) = val_main_v12 (F := Ideal) (W (Proc.devRef .tc main_arg1)) := by
  after_results
  rfl

set_option maxHeartbeats 1000000 in
theorem s0_v15 : after (hostOps0 (F := Ideal)) W (Proc.devRef .tc main_v15) = val_main_v15 (F := Ideal) (W (Proc.devRef .tc main_arg1)) := by
  after_results
  rfl

set_option maxHeartbeats 1000000 in
theorem s0_cst3 : after (hostOps0 (F := Ideal)) W (Proc.devRef .tc main_cst_3) = val_main_cst_3 (F := Ideal) := by
  after_results
  rfl

theorem s0_arg0 : after (hostOps0 (F := Ideal)) W (Proc.devRef .tc main_arg0) = W (Proc.devRef .tc main_arg0) := by keeps
theorem s0_arg2 : after (hostOps0 (F := Ideal)) W (Proc.devRef .tc main_arg2) = W (Proc.devRef .tc main_arg2) := by keeps
theorem s0_arg3 : after (hostOps0 (F := Ideal)) W (Proc.devRef .tc main_arg3) = W (Proc.devRef .tc main_arg3) := by keeps
theorem s0_arg4 : after (hostOps0 (F := Ideal)) W (Proc.devRef .tc main_arg4) = W (Proc.devRef .tc main_arg4) := by keeps
theorem s0_arg5 : after (hostOps0 (F := Ideal)) W (Proc.devRef .tc main_arg5) = W (Proc.devRef .tc main_arg5) := by keeps

/-! ## The selection -/

theorem s1_v16 : after (hostOps0_1 (F := Ideal)) W (Proc.devRef .tc main_v16)
    = select (W (Proc.devRef .tc main_v12)) (W (Proc.devRef .tc main_v15))
        (broadcastInDim S100000 ![] Facts₀.bcast_S_S100000 (W (Proc.devRef .tc main_cst_3))) := by
  after_results
  rfl

theorem s1_v3 : after (hostOps0_1 (F := Ideal)) W (Proc.devRef .tc main_v3) = W (Proc.devRef .tc main_v3) := by keeps
theorem s1_v6 : after (hostOps0_1 (F := Ideal)) W (Proc.devRef .tc main_v6) = W (Proc.devRef .tc main_v6) := by keeps
theorem s1_arg0 : after (hostOps0_1 (F := Ideal)) W (Proc.devRef .tc main_arg0) = W (Proc.devRef .tc main_arg0) := by keeps
theorem s1_arg2 : after (hostOps0_1 (F := Ideal)) W (Proc.devRef .tc main_arg2) = W (Proc.devRef .tc main_arg2) := by keeps
theorem s1_arg3 : after (hostOps0_1 (F := Ideal)) W (Proc.devRef .tc main_arg3) = W (Proc.devRef .tc main_arg3) := by keeps
theorem s1_arg4 : after (hostOps0_1 (F := Ideal)) W (Proc.devRef .tc main_arg4) = W (Proc.devRef .tc main_arg4) := by keeps
theorem s1_arg5 : after (hostOps0_1 (F := Ideal)) W (Proc.devRef .tc main_arg5) = W (Proc.devRef .tc main_arg5) := by keeps

/-! ## The three reshapes -/

theorem s2_v17 : after (hostOps0_2 (F := Ideal)) W (Proc.devRef .tc main_v17)
    = shapeCast S100000x1 (W (Proc.devRef .tc main_v16)) Facts₀.shapeCasts_S100000_S100000x1 := by
  after_results
  rfl

theorem s2_v18 : after (hostOps0_2 (F := Ideal)) W (Proc.devRef .tc main_v18)
    = shapeCast S1x16 (W (Proc.devRef .tc main_arg3)) Facts₀.shapeCasts_S16_S1x16 := by
  after_results
  rfl

theorem s2_v19 : after (hostOps0_2 (F := Ideal)) W (Proc.devRef .tc main_v19)
    = shapeCast S1x64 (W (Proc.devRef .tc main_arg5)) Facts₀.shapeCasts_S64_S1x64 := by
  after_results
  rfl

theorem s2_v3 : after (hostOps0_2 (F := Ideal)) W (Proc.devRef .tc main_v3) = W (Proc.devRef .tc main_v3) := by keeps
theorem s2_v6 : after (hostOps0_2 (F := Ideal)) W (Proc.devRef .tc main_v6) = W (Proc.devRef .tc main_v6) := by keeps
theorem s2_arg0 : after (hostOps0_2 (F := Ideal)) W (Proc.devRef .tc main_arg0) = W (Proc.devRef .tc main_arg0) := by keeps
theorem s2_arg2 : after (hostOps0_2 (F := Ideal)) W (Proc.devRef .tc main_arg2) = W (Proc.devRef .tc main_arg2) := by keeps
theorem s2_arg4 : after (hostOps0_2 (F := Ideal)) W (Proc.devRef .tc main_arg4) = W (Proc.devRef .tc main_arg4) := by keeps

/-! ## The three stretches before the first region, together -/

/-- The buffer contents when the first region is entered. -/
abbrev pre (W : Valuation τ sig (Elt Ideal)) : Valuation τ sig (Elt Ideal) :=
  after (hostOps0_2 (F := Ideal)) (after (hostOps0_1 (F := Ideal)) (after (hostOps0 (F := Ideal)) W))

theorem pre_arg0 : pre W (Proc.devRef .tc main_arg0) = W (Proc.devRef .tc main_arg0) := by unfold pre; rw [s2_arg0, s1_arg0, s0_arg0]
theorem pre_arg2 : pre W (Proc.devRef .tc main_arg2) = W (Proc.devRef .tc main_arg2) := by unfold pre; rw [s2_arg2, s1_arg2, s0_arg2]
theorem pre_arg4 : pre W (Proc.devRef .tc main_arg4) = W (Proc.devRef .tc main_arg4) := by unfold pre; rw [s2_arg4, s1_arg4, s0_arg4]
theorem pre_v3 : pre W (Proc.devRef .tc main_v3) = val_main_v3 (F := Ideal) (W (Proc.devRef .tc main_arg1)) := by unfold pre; rw [s2_v3, s1_v3, s0_v3]
theorem pre_v6 : pre W (Proc.devRef .tc main_v6) = val_main_v6 (F := Ideal) (W (Proc.devRef .tc main_arg1)) := by unfold pre; rw [s2_v6, s1_v6, s0_v6]

/-- The scale column is the reference's scale vector of the edge array, laid out 100000 x 1. -/
theorem pre_v17 : pre W (Proc.devRef .tc main_v17)
    = shapeCast S100000x1 (val_main_v16 (F := Ideal) (W (Proc.devRef .tc main_arg1))) Facts₀.shapeCasts_S100000_S100000x1 := by
  unfold pre
  rw [s2_v17, s1_v16, s0_v12, s0_v15, s0_cst3]
  rfl

theorem pre_v18 : pre W (Proc.devRef .tc main_v18)
    = shapeCast S1x16 (W (Proc.devRef .tc main_arg3)) Facts₀.shapeCasts_S16_S1x16 := by unfold pre; rw [s2_v18, s1_arg3, s0_arg3]

theorem pre_v19 : pre W (Proc.devRef .tc main_v19)
    = shapeCast S1x64 (W (Proc.devRef .tc main_arg5)) Facts₀.shapeCasts_S64_S1x64 := by unfold pre; rw [s2_v19, s1_arg5, s0_arg5]

/-! ## The gather and scatter-add after the first region -/

theorem s3_v30 : after (hostOps1 (F := Ideal)) W (Proc.devRef .tc main_v30)
    = Host.scatterAdd scatter_S100000x16_S3300000x1_S3300000x16_1_0_0_1
        (broadcastInDim S100000x16 ![] Facts₀.bcast_S_S100000x16 (constant (F := Ideal) S_ .f32 0x00000000#32))
        (tgtCol (W (Proc.devRef .tc main_v6)))
        (Host.gather gather_S100000x16_S3300000x1_S3300000x16_1_0_n_n_0_1_116 (W (Proc.devRef .tc main_v20))
          (wrapCol (W (Proc.devRef .tc main_v3)))) := by
  after_results
  rfl

theorem s3_v17 : after (hostOps1 (F := Ideal)) W (Proc.devRef .tc main_v17) = W (Proc.devRef .tc main_v17) := by keeps
theorem s3_v18 : after (hostOps1 (F := Ideal)) W (Proc.devRef .tc main_v18) = W (Proc.devRef .tc main_v18) := by keeps
theorem s3_v19 : after (hostOps1 (F := Ideal)) W (Proc.devRef .tc main_v19) = W (Proc.devRef .tc main_v19) := by keeps
theorem s3_arg4 : after (hostOps1 (F := Ideal)) W (Proc.devRef .tc main_arg4) = W (Proc.devRef .tc main_arg4) := by keeps
theorem s3_v3 : after (hostOps1 (F := Ideal)) W (Proc.devRef .tc main_v3) = W (Proc.devRef .tc main_v3) := by keeps
theorem s3_v6 : after (hostOps1 (F := Ideal)) W (Proc.devRef .tc main_v6) = W (Proc.devRef .tc main_v6) := by keeps

/-! ## The gather and scatter-add after the second region -/

theorem s4_v41 : after (hostOps2 (F := Ideal)) W (Proc.devRef .tc main_v41)
    = Host.scatterAdd scatter_S100000x64_S3300000x1_S3300000x64_1_0_0_1
        (broadcastInDim S100000x64 ![] Facts₀.bcast_S_S100000x64 (constant (F := Ideal) S_ .f32 0x00000000#32))
        (tgtCol (W (Proc.devRef .tc main_v6)))
        (Host.gather gather_S100000x64_S3300000x1_S3300000x64_1_0_n_n_0_1_164 (W (Proc.devRef .tc main_v31))
          (wrapCol (W (Proc.devRef .tc main_v3)))) := by
  after_results
  rfl

theorem s4_v17 : after (hostOps2 (F := Ideal)) W (Proc.devRef .tc main_v17) = W (Proc.devRef .tc main_v17) := by keeps
theorem s4_v19 : after (hostOps2 (F := Ideal)) W (Proc.devRef .tc main_v19) = W (Proc.devRef .tc main_v19) := by keeps

/-! ## The index columns are the reference's -/

theorem tgtCol_ref (x1 : (⟨Cert.ReferenceIdeal.S2x3200000, .i32⟩ : BufTy).Contents (Elt Ideal)) :
    tgtCol (val_main_v6 (F := Ideal) x1) = val_main_v44 (F := Ideal) x1 := rfl

theorem wrapCol_ref (x1 : (⟨Cert.ReferenceIdeal.S2x3200000, .i32⟩ : BufTy).Contents (Elt Ideal)) :
    wrapCol (val_main_v3 (F := Ideal) x1) = val_main_v38 (F := Ideal) x1 := rfl

end Cert.KernelIdeal.GcnHost

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.KBody.lean ====
/-
  The three kernel bodies' stored values, read at an index, at the ideal values.

  Each body loads whole blocks, computes, and stores one block. At the ideal values a change of float format is the
  identity, a matrix product into a zero accumulator is the plain sum over the contracted index, a 5000 x 1 column spread
  over the lanes reads the column at the row, and a 1 x b row spread over the rows reads the row at the lane. So, at row r
  and lane q of the stored block:
  • the first body stores   (sum over k of x(r, k) * w(k, q)) * dcol(r);
  • the second body stores  (sum over k of max(a(r, k) * dcol(r) + bias(k), 0) * w(k, q)) * dcol(r);
  • the third body stores   logistic(a(r, q) * dcol(r) + bias(q)).
-/
import proofs.«161874_j27427661152768_2_alg».proof.Proof.Gen.KernelIdeal.Skeleton
import proofs.«161874_j27427661152768_2_alg».proof.Proof.LibPlainProduct
import proofs.«161874_j27427661152768_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnBody

open Cert.KernelIdeal Cert.KernelIdeal.Gen Idealize.ShloMosaic Idealize.ShloMosaic.ValueIdx Idealize.ShloMosaic.LibColumns

/-- A 5000 x 1 column, cast to its own shape twice and spread over b lanes, reads the column at the row. -/
theorem col_apply {b : ℕ} (v : Vec Ideal S5000x1 .f32) (h1 h2 : S5000x1.ShapeCasts S5000x1)
    (hb : S5000x1.Broadcasts ⟨2, ![5000, b]⟩) (r : Fin 5000) (q : Fin b) :
    broadcastTo ⟨2, ![5000, b]⟩ (shapeCast S5000x1 (shapeCast S5000x1 v h1) h2) hb (ix2 r q) = v (ix2 r (0 : Fin 1)) := by
  rw [shapeCast_self, shapeCast_self]
  exact broadcastTo_a1_ab_apply v hb r q

/-- A 1 x b row, cast to its own shape and spread over 5000 rows, reads the row at the lane. -/
theorem row_apply {b : ℕ} (v : (⟨2, ![1, b]⟩ : Shape).Idx → EReal) (h1 : (⟨2, ![1, b]⟩ : Shape).ShapeCasts ⟨2, ![1, b]⟩)
    (hb : (⟨2, ![1, b]⟩ : Shape).Broadcasts ⟨2, ![5000, b]⟩) (r : Fin 5000) (q : Fin b) :
    broadcastTo ⟨2, ![5000, b]⟩ (shapeCast ⟨2, ![1, b]⟩ v h1) hb (ix2 r q) = v (ix2 (0 : Fin 1) q) := by
  rw [shapeCast_self]
  exact broadcastTo_1b_ab_apply v hb r q

/-- The first body's stored value at (r, q). -/
theorem pay0_apply (x0 : Vec Ideal S5000x128 .f32) (x1 : Vec Ideal S128x16 .f32) (x2 : Vec Ideal S5000x1 .f32)
    (r : Fin 5000) (q : Fin 16) :
    k0_pay1 (F := Ideal) x0 x1 x2 (ix2 r q)
      = (∑ k : Fin 128, x0 (ix2 r k) * x1 (ix2 k q)) * x2 (ix2 r (0 : Fin 1)) := by
  simp only [k0_pay1]
  rw [mulf_apply]
  refine congrArg₂ (· * ·) ?_ ?_
  · exact PlainProduct.matmul_zero_apply Facts₀.dot_S5000x128_S128x16_S5000x16_1_0_0_1_n_n_wf none _ _ r q
  · exact col_apply x2 _ _ _ r q

/-- The second body's rectified input at (r, k). -/
def relu1 (x0 : Vec Ideal S5000x1 .f32) (x1 : Vec Ideal S5000x16 .f32) (x2 : Vec Ideal S1x16 .f32) (r : Fin 5000) (k : Fin 16) : EReal :=
  max (x1 (ix2 r k) * x0 (ix2 r (0 : Fin 1)) + x2 (ix2 (0 : Fin 1) k)) 0

/-- The second body's stored value at (r, q). -/
theorem pay1_apply (x0 : Vec Ideal S5000x1 .f32) (x1 : Vec Ideal S5000x16 .f32) (x2 : Vec Ideal S1x16 .f32)
    (x3 : Vec Ideal S16x64 .f32) (x4 : Vec Ideal S5000x1 .f32) (r : Fin 5000) (q : Fin 64) :
    k1_pay1 (F := Ideal) x0 x1 x2 x3 x4 (ix2 r q)
      = (∑ k : Fin 16, relu1 x0 x1 x2 r k * x3 (ix2 k q)) * x4 (ix2 r (0 : Fin 1)) := by
  simp only [k1_pay1]
  rw [mulf_apply]
  refine congrArg₂ (· * ·) ?_ ?_
  · refine (PlainProduct.matmul_zero_apply Facts₀.dot_S5000x16_S16x64_S5000x64_1_0_0_1_n_n_wf none _ _ r q).trans ?_
    refine Finset.sum_congr rfl fun k _ => ?_
    refine congrArg₂ (· * ·) ?_ rfl
    show max (shapeCast S5000x16 x1 _ (ix2 r k) * broadcastTo S5000x16 _ _ (ix2 r k) + broadcastTo S5000x16 _ _ (ix2 r k))
        (Ideal.ofBits .f32 0x00000000#32) = _
    rw [shapeCast_self, col_apply x0 _ _ _ r k, row_apply x2 _ _ r k, Ideal.ofBits_zero_f32]
    rfl
  · exact col_apply x4 _ _ _ r q

/-- The third body's stored value at (r, q). -/
theorem pay2_apply (x0 : Vec Ideal S5000x1 .f32) (x1 : Vec Ideal S5000x64 .f32) (x2 : Vec Ideal S1x64 .f32)
    (r : Fin 5000) (q : Fin 64) :
    k2_pay1 (F := Ideal) x0 x1 x2 (ix2 r q)
      = Ideal.logistic (x1 (ix2 r q) * x0 (ix2 r (0 : Fin 1)) + x2 (ix2 (0 : Fin 1) q)) := by
  simp only [k2_pay1]
  show Ideal.logistic (shapeCast S5000x64 x1 _ (ix2 r q) * broadcastTo S5000x64 _ _ (ix2 r q) + broadcastTo S5000x64 _ _ (ix2 r q)) = _
  rw [shapeCast_self, col_apply x0 _ _ _ r q, row_apply x2 _ _ r q]

end Cert.KernelIdeal.GcnBody

end
-- ==== Proof.KForms.lean ====
/-
  The three pipelined regions' results as whole-array functions of the arrays each region reads.

  • the first dense layer with its rows scaled:      R0(n, f) = (sum over k of X(n, k) * W(k, f)) * D(n, 0);
  • the second layer (scale, bias, rectifier, dense layer, scale):
        R1(n, p) = (sum over k of max(A(n, k) * D(n, 0) + B(0, k), 0) * W(k, p)) * D(n, 0);
  • the output (scale, bias, logistic):               R2(n, p) = logistic(A(n, p) * D(n, 0) + B(0, p)).
  D is the per-node scale laid out as a 100000 x 1 column, B a bias laid out as a one-row matrix.
-/
import proofs.«161874_j27427661152768_2_alg».proof.Proof.GcnSpec

noncomputable section

namespace Gcn

open Idealize.ShloMosaic Idealize.ShloMosaic.ValueIdx

/-- Region 0's result from the features, the first weight matrix and the scale column. -/
def G0 (X : (⟨2, ![100000, 128]⟩ : Shape).Idx → EReal) (Wt : (⟨2, ![128, 16]⟩ : Shape).Idx → EReal)
    (D : (⟨2, ![100000, 1]⟩ : Shape).Idx → EReal) : (⟨2, ![100000, 16]⟩ : Shape).Idx → EReal :=
  arr2 fun n f => mm X Wt n f * D (ix2 n (0 : Fin 1))

/-- Region 1's result from the first aggregate, the scale column, the bias row and the second weight matrix. -/
def G1 (A : (⟨2, ![100000, 16]⟩ : Shape).Idx → EReal) (D : (⟨2, ![100000, 1]⟩ : Shape).Idx → EReal)
    (B : (⟨2, ![1, 16]⟩ : Shape).Idx → EReal) (Wt : (⟨2, ![16, 64]⟩ : Shape).Idx → EReal) :
    (⟨2, ![100000, 64]⟩ : Shape).Idx → EReal :=
  arr2 fun n p => (∑ k : Fin 16, max (A (ix2 n k) * D (ix2 n (0 : Fin 1)) + B (ix2 (0 : Fin 1) k)) 0 * Wt (ix2 k p))
    * D (ix2 n (0 : Fin 1))

/-- Region 2's result from the second aggregate, the scale column and the bias row. -/
def G2 (A : (⟨2, ![100000, 64]⟩ : Shape).Idx → EReal) (D : (⟨2, ![100000, 1]⟩ : Shape).Idx → EReal)
    (B : (⟨2, ![1, 64]⟩ : Shape).Idx → EReal) : (⟨2, ![100000, 64]⟩ : Shape).Idx → EReal :=
  arr2 fun n p => Ideal.logistic (A (ix2 n p) * D (ix2 n (0 : Fin 1)) + B (ix2 (0 : Fin 1) p))

end Gcn

end
-- ==== Proof.KBlocks0.lean ====
/-
  Region 0 (the first dense layer, rows scaled): from blocks to the array.

  The grid has 20 points; point t reads rows 5000 t .. 5000 t + 4999 of the features and of the scale column, the whole
  weight matrix, and writes back the same rows of the result. What point t writes back is therefore block t of ONE function
  of the arrays as the region finds them:  result(n, f) = (sum over k of x(n, k) * w(k, f)) * dcol(n, 0).  The 20 row blocks
  cover the result array (row n lies in block n / 5000), so the array ends holding that function.
-/
import proofs.«161874_j27427661152768_2_alg».proof.Proof.Gen.KernelIdeal.Frame
import proofs.«161874_j27427661152768_2_alg».proof.Proof.KBody
import proofs.«161874_j27427661152768_2_alg».proof.Proof.KForms
import Idealize.ShloMosaic.Lib.Pipeline.Value

set_option maxRecDepth 16384

noncomputable section

namespace Cert.KernelIdeal.GcnBlocks0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

open Gcn (G0)

/-- The printed index maps over the grid: the row-blocked windows sit at block row t, the weight window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The stored block at (r, q) is the function at row 5000 T + r, whenever the loaded blocks are the arrays' rows there. -/
theorem point (x0 : Vec Ideal S5000x128 .f32) (x1 : Vec Ideal S128x16 .f32) (x2 : Vec Ideal S5000x1 .f32)
    (X : S100000x128.Idx → EReal) (Wt : S128x16.Idx → EReal) (D : S100000x1.Idx → EReal)
    (r : Fin 5000) (q : Fin 16) (n : Fin 100000)
    (h0 : ∀ k : Fin 128, x0 (ix2 r k) = X (ix2 n k)) (h1 : ∀ k : Fin 128, x1 (ix2 k q) = Wt (ix2 k q))
    (h2 : x2 (ix2 r (0 : Fin 1)) = D (ix2 n (0 : Fin 1))) :
    k0_pay1 (F := Ideal) x0 x1 x2 (ix2 r q) = G0 X Wt D (ix2 n q) := by
  rw [GcnBody.pay0_apply, h2]
  show _ = Gcn.mm X Wt n q * D (ix2 n (0 : Fin 1))
  refine congrArg (· * D (ix2 n (0 : Fin 1))) ?_
  exact Finset.sum_congr rfl fun k _ => by rw [h0 k, h1 k]

/-- WHAT POINT t WRITES BACK is block t of the function of the arrays as the region finds them. -/
theorem flushed_eq (c : Dev nD) (t : Fin cfg0.N) :
    (dat0 (F := Ideal) V c).flushed 3 t
      = ((cfg0.win 3).blk t).view.read (Elt Ideal) (G0 (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S5000x1) hz]
  obtain ⟨e00, e01, e10, e11, e20, e21, e30, e31⟩ := idx_facts t
  have htN : t.val < 20 := by have h1 := t.isLt; have hN : cfg0.N = 20 := N_0; omega
  funext j
  obtain ⟨r, q, rfl⟩ : ∃ (r : Fin 5000) (q : Fin 16), j = ix2 r q := ⟨j 0, j 1, eq_ix2 j⟩
  have hr := r.isLt
  have hq := q.isLt
  have hemb : ((cfg0.win 3).blk t).view.emb (ix2 r q) = ix2 (⟨t.val * 5000 + r.val, by omega⟩ : Fin 100000) q := by
    funext a; apply Fin.ext
    match a with
    | ⟨0, _⟩ => show win0_3.index t (0 : Fin 2) * 5000 + 1 * r.val = t.val * 5000 + r.val; omega
    | ⟨1, _⟩ => show win0_3.index t (1 : Fin 2) * 16 + 1 * q.val = q.val; omega
  show k0_pay1 (F := Ideal) (iblk0 V c 0 t) (iblk0 V c 1 t) (iblk0 V c 2 t) (ix2 r q)
      = G0 (V c main_arg0) (V c main_arg2) (V c main_v17) (((cfg0.win 3).blk t).view.emb (ix2 r q))
  rw [hemb]
  refine point _ _ _ _ _ _ r q _ (fun k => ?_) (fun k => ?_) ?_
  · show V c main_arg0 (((cfg0.win 0).blk t).view.emb (ix2 r k)) = V c main_arg0 (ix2 (⟨t.val * 5000 + r.val, by omega⟩ : Fin 100000) k)
    refine congrArg _ ?_
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 16 + 1 * q.val = q.val; omega
  · show V c main_v17 (((cfg0.win 2).blk t).view.emb (ix2 r (0 : Fin 1))) = V c main_v17 (ix2 (⟨t.val * 5000 + r.val, by omega⟩ : Fin 100000) (0 : Fin 1))
    refine congrArg _ ?_
    funext a; apply Fin.ext
    match a with
    | ⟨0, _⟩ => show win0_2.index t (0 : Fin 2) * 5000 + 1 * r.val = t.val * 5000 + r.val; omega
    | ⟨1, _⟩ => show win0_2.index t (1 : Fin 2) * 1 + 1 * 0 = 0; omega

/-- An index of the result array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v20).slice (win0_3.rect t)).set ↔ _
  rw [View.set_slice_whole, Rect.mem_set_unit]
  exact Iff.rfl

/-- Every index of the result array lies in some point's block: row n in block n / 5000. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨e00, e01, e10, e11, e20, e21, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- THE RESULT ARRAY after the region: the function of the arrays as the region finds them. -/
theorem final (c : Dev nD) :
    (dat0 (F := Ideal) V c).arrAt 3 cfg0.N = G0 (V c main_arg0) (V c main_arg2) (V c main_v17) :=
  (dat0 V c).arrAt_eq_of_cover 3 _ (fun t _ => flushed_eq V c t) cover

end Cert.KernelIdeal.GcnBlocks0

end
-- ==== Proof.KBlocks1.lean ====
/-
  Region 1 (scale, bias, rectifier, second dense layer, scale): from blocks to the array.

  The grid has 20 points; point t reads rows 5000 t .. 5000 t + 4999 of the first aggregate and of the scale column, the whole
  bias row and the whole second weight matrix, and writes back the same rows of the result. What point t writes back is
  block t of ONE function of the arrays as the region finds them,
  result(n, p) = (sum over k of max(A(n, k) * D(n, 0) + B(0, k), 0) * W(k, p)) * D(n, 0),
  and the 20 row blocks cover the result array, so the array ends holding that function.
-/
import proofs.«161874_j27427661152768_2_alg».proof.Proof.Gen.KernelIdeal.Frame
import proofs.«161874_j27427661152768_2_alg».proof.Proof.KBody
import proofs.«161874_j27427661152768_2_alg».proof.Proof.KForms
import Idealize.ShloMosaic.Lib.Pipeline.Value

set_option maxRecDepth 16384

noncomputable section

namespace Cert.KernelIdeal.GcnBlocks1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Gcn (G1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the whole-array windows at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The stored block at (r, q) is the function at row n, whenever the loaded blocks are the arrays' rows there. -/
theorem point (xd : Vec Ideal S5000x1 .f32) (xa : Vec Ideal S5000x16 .f32) (xb : Vec Ideal S1x16 .f32) (xw : Vec Ideal S16x64 .f32)
    (A : S100000x16.Idx → EReal) (D : S100000x1.Idx → EReal) (B : S1x16.Idx → EReal) (Wt : S16x64.Idx → EReal)
    (r : Fin 5000) (q : Fin 64) (n : Fin 100000)
    (ha : ∀ k : Fin 16, xa (ix2 r k) = A (ix2 n k)) (hd : xd (ix2 r (0 : Fin 1)) = D (ix2 n (0 : Fin 1)))
    (hb : ∀ k : Fin 16, xb (ix2 (0 : Fin 1) k) = B (ix2 (0 : Fin 1) k)) (hw : ∀ k : Fin 16, xw (ix2 k q) = Wt (ix2 k q)) :
    k1_pay1 (F := Ideal) xd xa xb xw xd (ix2 r q) = G1 A D B Wt (ix2 n q) := by
  rw [GcnBody.pay1_apply, hd]
  show _ = (∑ k : Fin 16, max (A (ix2 n k) * D (ix2 n (0 : Fin 1)) + B (ix2 (0 : Fin 1) k)) 0 * Wt (ix2 k q)) * D (ix2 n (0 : Fin 1))
  refine congrArg (· * D (ix2 n (0 : Fin 1))) ?_
  refine Finset.sum_congr rfl fun k _ => ?_
  unfold GcnBody.relu1
  rw [ha k, hd, hb k, hw k]

/-- WHAT POINT t WRITES BACK is block t of the function of the arrays as the region finds them. -/
theorem flushed_eq (c : Dev nD) (t : Fin cfg1.N) :
    (dat1 (F := Ideal) V c).flushed 4 t
      = ((cfg1.win 4).blk t).view.read (Elt Ideal) (G1 (V c main_v30) (V c main_v17) (V c main_v18) (V c main_arg4)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz, View.ld_unit_zero (S := S16x64) hz]
  obtain ⟨e00, e01, e10, e11, e20, e21, e30, e31, e40, e41⟩ := idx_facts t
  have htN : t.val < 20 := by have h1 := t.isLt; have hN : cfg1.N = 20 := N_1; omega
  funext j
  obtain ⟨r, q, rfl⟩ : ∃ (r : Fin 5000) (q : Fin 64), j = ix2 r q := ⟨j 0, j 1, eq_ix2 j⟩
  have hr := r.isLt
  have hq := q.isLt
  have hemb : ((cfg1.win 4).blk t).view.emb (ix2 r q) = ix2 (⟨t.val * 5000 + r.val, by omega⟩ : Fin 100000) q := by
    funext a; apply Fin.ext
    match a with
    | ⟨0, _⟩ => show win1_4.index t (0 : Fin 2) * 5000 + 1 * r.val = t.val * 5000 + r.val; omega
    | ⟨1, _⟩ => show win1_4.index t (1 : Fin 2) * 64 + 1 * q.val = q.val; omega
  show k1_pay1 (F := Ideal) (iblk1 V c 1 t) (iblk1 V c 0 t) (iblk1 V c 2 t) (iblk1 V c 3 t) (iblk1 V c 1 t) (ix2 r q)
      = G1 (V c main_v30) (V c main_v17) (V c main_v18) (V c main_arg4) (((cfg1.win 4).blk t).view.emb (ix2 r q))
  rw [hemb]
  refine point _ _ _ _ _ _ _ _ r q _ (fun k => ?_) ?_ (fun k => ?_) (fun k => ?_)
  · have hk := k.isLt
    show V c main_v30 (((cfg1.win 0).blk t).view.emb (ix2 r k)) = V c main_v30 (ix2 (⟨t.val * 5000 + r.val, by omega⟩ : Fin 100000) k)
    refine congrArg _ ?_
    funext a; apply Fin.ext
    match a with
    | ⟨0, _⟩ => show win1_0.index t (0 : Fin 2) * 5000 + 1 * r.val = t.val * 5000 + r.val; omega
    | ⟨1, _⟩ => show win1_0.index t (1 : Fin 2) * 16 + 1 * k.val = k.val; omega
  · show V c main_v17 (((cfg1.win 1).blk t).view.emb (ix2 r (0 : Fin 1))) = V c main_v17 (ix2 (⟨t.val * 5000 + r.val, by omega⟩ : Fin 100000) (0 : Fin 1))
    refine congrArg _ ?_
    funext a; apply Fin.ext
    match a with
    | ⟨0, _⟩ => show win1_1.index t (0 : Fin 2) * 5000 + 1 * r.val = t.val * 5000 + r.val; omega
    | ⟨1, _⟩ => show win1_1.index t (1 : Fin 2) * 1 + 1 * 0 = 0; omega
  · have hk := k.isLt
    show V c main_v18 (((cfg1.win 2).blk t).view.emb (ix2 (0 : Fin 1) k)) = V c main_v18 (ix2 (0 : Fin 1) k)
    refine congrArg _ ?_
    funext a; apply Fin.ext
    match a with
    | ⟨0, _⟩ => show win1_2.index t (0 : Fin 2) * 1 + 1 * 0 = 0; omega
    | ⟨1, _⟩ => show win1_2.index t (1 : Fin 2) * 16 + 1 * k.val = k.val; omega
  · have hk := k.isLt
    show V c main_arg4 (((cfg1.win 3).blk t).view.emb (ix2 k q)) = V c main_arg4 (ix2 k q)
    refine congrArg _ ?_
    funext a; apply Fin.ext
    match a with
    | ⟨0, _⟩ => show win1_3.index t (0 : Fin 2) * 16 + 1 * k.val = k.val; omega
    | ⟨1, _⟩ => show win1_3.index t (1 : Fin 2) * 64 + 1 * q.val = q.val; omega

/-- An index of the result array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v31).slice (win1_4.rect t)).set ↔ _
  rw [View.set_slice_whole, Rect.mem_set_unit]
  exact Iff.rfl

/-- Every index of the result array lies in some point's block: row n in block n / 5000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e00, e01, e10, e11, e20, e21, e30, e31, e40, e41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE RESULT ARRAY after the region: the function of the arrays as the region finds them. -/
theorem final (c : Dev nD) :
    (dat1 (F := Ideal) V c).arrAt 4 cfg1.N = G1 (V c main_v30) (V c main_v17) (V c main_v18) (V c main_arg4) :=
  (dat1 V c).arrAt_eq_of_cover 4 _ (fun t _ => flushed_eq V c t) cover

end Cert.KernelIdeal.GcnBlocks1

end
-- ==== Proof.KBlocks2.lean ====
/-
  Region 2 (scale, bias, logistic): from blocks to the array.

  The grid has 20 points; point t reads rows 5000 t .. 5000 t + 4999 of the second aggregate and of the scale column and the
  whole bias row, and writes back the same rows of the result. What point t writes back is block t of ONE function of the
  arrays as the region finds them,  result(n, p) = logistic(A(n, p) * D(n, 0) + B(0, p)),  and the 20 row blocks cover the
  result array, so the array ends holding that function.
-/
import proofs.«161874_j27427661152768_2_alg».proof.Proof.Gen.KernelIdeal.Frame
import proofs.«161874_j27427661152768_2_alg».proof.Proof.KBody
import proofs.«161874_j27427661152768_2_alg».proof.Proof.KForms
import Idealize.ShloMosaic.Lib.Pipeline.Value

set_option maxRecDepth 16384

noncomputable section

namespace Cert.KernelIdeal.GcnBlocks2

open Cert.KernelIdeal Cert.KernelIdeal.Gen Idealize.ShloMosaic Idealize.ShloMosaic.TcCoe Idealize.ShloMosaic.ValueIdx
open Idealize.SL.Sem
open Idealize.ShloMosaic.Pipeline (Dat Cfg Window)
open Gcn (G2)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias window at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The stored block at (r, q) is the function at row n, whenever the loaded blocks are the arrays' rows there. -/
theorem point (xd : Vec Ideal S5000x1 .f32) (xa : Vec Ideal S5000x64 .f32) (xb : Vec Ideal S1x64 .f32)
    (A : S100000x64.Idx → EReal) (D : S100000x1.Idx → EReal) (B : S1x64.Idx → EReal)
    (r : Fin 5000) (q : Fin 64) (n : Fin 100000)
    (ha : xa (ix2 r q) = A (ix2 n q)) (hd : xd (ix2 r (0 : Fin 1)) = D (ix2 n (0 : Fin 1)))
    (hb : xb (ix2 (0 : Fin 1) q) = B (ix2 (0 : Fin 1) q)) :
    k2_pay1 (F := Ideal) xd xa xb (ix2 r q) = G2 A D B (ix2 n q) := by
  rw [GcnBody.pay2_apply, ha, hd, hb]
  rfl

/-- WHAT POINT t WRITES BACK is block t of the function of the arrays as the region finds them. -/
theorem flushed_eq (c : Dev nD) (t : Fin cfg2.N) :
    (dat2 (F := Ideal) V c).flushed 3 t
      = ((cfg2.win 3).blk t).view.read (Elt Ideal) (G2 (V c main_v41) (V c main_v17) (V c main_v19)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  have htN : t.val < 20 := by have h1 := t.isLt; have hN : cfg2.N = 20 := N_2; omega
  funext j
  obtain ⟨r, q, rfl⟩ : ∃ (r : Fin 5000) (q : Fin 64), j = ix2 r q := ⟨j 0, j 1, eq_ix2 j⟩
  have hr := r.isLt
  have hq := q.isLt
  have hemb : ((cfg2.win 3).blk t).view.emb (ix2 r q) = ix2 (⟨t.val * 5000 + r.val, by omega⟩ : Fin 100000) q := by
    funext a; apply Fin.ext
    match a with
    | ⟨0, _⟩ => show win2_3.index t (0 : Fin 2) * 5000 + 1 * r.val = t.val * 5000 + r.val; omega
    | ⟨1, _⟩ => show win2_3.index t (1 : Fin 2) * 64 + 1 * q.val = q.val; omega
  show k2_pay1 (F := Ideal) (iblk2 V c 1 t) (iblk2 V c 0 t) (iblk2 V c 2 t) (ix2 r q)
      = G2 (V c main_v41) (V c main_v17) (V c main_v19) (((cfg2.win 3).blk t).view.emb (ix2 r q))
  rw [hemb]
  refine point _ _ _ _ _ _ r q _ ?_ ?_ ?_
  · show V c main_v41 (((cfg2.win 0).blk t).view.emb (ix2 r q)) = V c main_v41 (ix2 (⟨t.val * 5000 + r.val, by omega⟩ : Fin 100000) q)
    refine congrArg _ ?_
    funext a; apply Fin.ext
    match a with
    | ⟨0, _⟩ => show win2_0.index t (0 : Fin 2) * 5000 + 1 * r.val = t.val * 5000 + r.val; omega
    | ⟨1, _⟩ => show win2_0.index t (1 : Fin 2) * 64 + 1 * q.val = q.val; omega
  · show V c main_v17 (((cfg2.win 1).blk t).view.emb (ix2 r (0 : Fin 1))) = V c main_v17 (ix2 (⟨t.val * 5000 + r.val, by omega⟩ : Fin 100000) (0 : Fin 1))
    refine congrArg _ ?_
    funext a; apply Fin.ext
    match a with
    | ⟨0, _⟩ => show win2_1.index t (0 : Fin 2) * 5000 + 1 * r.val = t.val * 5000 + r.val; omega
    | ⟨1, _⟩ => show win2_1.index t (1 : Fin 2) * 1 + 1 * 0 = 0; omega
  · show V c main_v19 (((cfg2.win 2).blk t).view.emb (ix2 (0 : Fin 1) q)) = V c main_v19 (ix2 (0 : Fin 1) q)
    refine congrArg _ ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega

/-- An index of the result array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Every index of the result array lies in some point's block: row n in block n / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE RESULT ARRAY after the region: the function of the arrays as the region finds them. -/
theorem final (c : Dev nD) :
    (dat2 (F := Ideal) V c).arrAt 3 cfg2.N = G2 (V c main_v41) (V c main_v17) (V c main_v19) :=
  (dat2 V c).arrAt_eq_of_cover 3 _ (fun t _ => flushed_eq V c t) cover

end Cert.KernelIdeal.GcnBlocks2

end
-- ==== Proof.KMath.lean ====
/-
  The kernel's chain of computations is the scaled form of the two graph-convolution layers.

  The chain: the first dense layer with scaled rows (R0); on the host, a gather of its rows by the edges' source indices
  followed by a scatter-add into zeros by the edges' target indices; the second layer (R1) from that aggregate; the same
  gather and scatter-add; the output (R2) from the second aggregate.

  • A row scatter-add into zeros, read at (n, f), is the sum over the update rows whose index — read signed — is n of the
    update's entry in column f; a row gather read at (e, f) is the operand at the row the index names — read signed and
    clamped into the node range — and column f. Composed, they are the sum over the edges pointing at n of the operand at the
    edge's source row: the segment sum `seg`.
  • With the scale column D(n, 0) = d[n] and the bias rows B(0, k) = b[k]: R0 is the array of the scaled first-layer
    features; so the first aggregate is the first scaled sum; R1 is then the array of the scaled second-layer features
    (its inner sum is the matrix product of the rectified first-layer output with the second weight matrix); so the second
    aggregate is the second scaled sum; and R2 is the logistic function of that sum scaled by d[n] plus the bias, which is
    the scaled form's output.
-/
import proofs.«161874_j27427661152768_2_alg».proof.Proof.KForms
import proofs.«161874_j27427661152768_2_alg».proof.Proof.GcnSpec
import proofs.«161874_j27427661152768_2_alg».proof.Proof.LibSparseRows
import Idealize.ShloMosaic.Lib.ValueIdx
import Idealize.ShloMosaic.PureOps.Ideal.Laws

noncomputable section

namespace Gcn

open Idealize.ShloMosaic Idealize.ShloMosaic.ValueIdx

/-- A row gather by the source indices followed by a row scatter-add into zeros by the target indices, read at (n, f), is
    the sum over the edges pointing at `n` of column `f` of the operand at the row the edge's source index names. -/
theorem seg_of_scatter_gather {F : Nat}
    (wfg : GatherDims.WF (⟨2, ![100000, F]⟩ : Shape) ⟨2, ![3300000, 1]⟩ ⟨2, ![3300000, F]⟩ [1] [0] [] [0] [] 1 ![1, F])
    (wfs : ScatterDims.WF (⟨2, ![100000, F]⟩ : Shape) ⟨2, ![3300000, 1]⟩ ⟨2, ![3300000, F]⟩ [1] [0] [0] 1)
    (Z : FVec Ideal ⟨2, ![100000, F]⟩ .f32) (ti si : IVec ⟨2, ![3300000, 1]⟩ 32) (M : FVec Ideal ⟨2, ![100000, F]⟩ .f32)
    (hZ : ∀ i, Z i = 0) (n : Fin 100000) (f : Fin F) :
    Host.scatterAdd (ScatterRows.rowDims 100000 3300000 F wfs) Z ti (Host.gather (GatherRows.rowDims 100000 3300000 F wfg) M si) (ix2 n f)
      = Gcn.seg ti si M n f := by
  rw [ScatterRows.scatterAdd_rows_apply wfs, hZ, zero_add]
  unfold seg
  refine Finset.sum_congr rfl fun e _ => ?_
  rw [GatherRows.gather_rows_apply wfg (by omega)]

/-- The chain R0, aggregate, R1, aggregate, R2 — with the scale column and the bias rows holding the scale and the biases —
    is the scaled form's output. -/
theorem kernel_chain
    (x : (⟨2, ![100000, 128]⟩ : Shape).Idx → EReal) (w1 : (⟨2, ![128, 16]⟩ : Shape).Idx → EReal)
    (b1 : (⟨1, ![16]⟩ : Shape).Idx → EReal) (w2 : (⟨2, ![16, 64]⟩ : Shape).Idx → EReal) (b2 : (⟨1, ![64]⟩ : Shape).Idx → EReal)
    (d : (⟨1, ![100000]⟩ : Shape).Idx → EReal) (ti si : IVec ⟨2, ![3300000, 1]⟩ 32)
    (Dc : (⟨2, ![100000, 1]⟩ : Shape).Idx → EReal) (B1 : (⟨2, ![1, 16]⟩ : Shape).Idx → EReal) (B2 : (⟨2, ![1, 64]⟩ : Shape).Idx → EReal)
    (A1 : (⟨2, ![100000, 16]⟩ : Shape).Idx → EReal) (A2 : (⟨2, ![100000, 64]⟩ : Shape).Idx → EReal)
    (hDc : ∀ n : Fin 100000, Dc (ix2 n (0 : Fin 1)) = d (ix1 n))
    (hB1 : ∀ k : Fin 16, B1 (ix2 (0 : Fin 1) k) = b1 (ix1 k)) (hB2 : ∀ p : Fin 64, B2 (ix2 (0 : Fin 1) p) = b2 (ix1 p))
    (hA1 : ∀ (n : Fin 100000) (f : Fin 16), A1 (ix2 n f) = Gcn.seg ti si (Gcn.G0 x w1 Dc) n f)
    (hA2 : ∀ (n : Fin 100000) (p : Fin 64), A2 (ix2 n p) = Gcn.seg ti si (Gcn.G1 A1 Dc B1 w2) n p)
    (n : Fin 100000) (p : Fin 64) :
    Gcn.G2 A2 Dc B2 (ix2 n p) = Gcn.outK x w1 b1 w2 b2 d ti si n p := by
  -- R0 is the array of the scaled first-layer features
  have hG0 : G0 x w1 Dc = arr2 (h1s x w1 d) := by
    unfold G0
    refine congrArg arr2 ?_
    funext m f
    unfold h1s
    rw [hDc]
  -- so the first aggregate is the first scaled sum
  have hA1' : ∀ (m : Fin 100000) (f : Fin 16), A1 (ix2 m f) = a1k x w1 d ti si m f := by
    intro m f
    rw [hA1, hG0]
    rfl
  -- R1 is the array of the scaled second-layer features
  have hG1 : G1 A1 Dc B1 w2 = arr2 (h2s x w1 b1 w2 d ti si) := by
    unfold G1
    refine congrArg arr2 ?_
    funext m q
    unfold h2s mm
    rw [hDc]
    refine congrArg (· * d (ix1 m)) ?_
    refine Finset.sum_congr rfl fun k _ => ?_
    rw [hA1', hB1, arr2_ix2]
    rfl
  -- so the second aggregate is the second scaled sum
  have hA2' : A2 (ix2 n p) = a2k x w1 b1 w2 d ti si n p := by
    rw [hA2, hG1]
    rfl
  unfold G2 outK
  rw [arr2_ix2, hA2', hDc, hB2]

end Gcn

end
-- ==== Proof.KValue.lean ====
/-
  The idealized kernel program's result array, as a function of the argument arrays.

  The buffer contents are followed through the program's eight segments. Before the first region: the feature matrix and
  the weights are as launched, the scale column is the reference's scale vector of the edge array laid out 100000 x 1, the
  biases are laid out as one-row matrices, and the two edge-index vectors are the reference's. Region 0 leaves the scaled
  first-layer features; the host gathers their rows by the wrapped source indices and scatter-adds them by the target
  indices; region 1 scales, adds the bias, rectifies, applies the second dense layer and scales again; the host gathers and
  scatter-adds once more; region 2 scales, adds the bias and applies the logistic function. Index by index that chain is the
  scaled form `Gcn.outK` of the two graph-convolution layers.
-/
import proofs.«161874_j27427661152768_2_alg».proof.Proof.Gen.KernelIdeal.Frame
import proofs.«161874_j27427661152768_2_alg».proof.Proof.KHost
import proofs.«161874_j27427661152768_2_alg».proof.Proof.KBlocks0
import proofs.«161874_j27427661152768_2_alg».proof.Proof.KBlocks1
import proofs.«161874_j27427661152768_2_alg».proof.Proof.KBlocks2
import proofs.«161874_j27427661152768_2_alg».proof.Proof.KMath
import proofs.«161874_j27427661152768_2_alg».proof.Proof.LibColumns
import Idealize.ShloMosaic.Lib.ValueLayout

set_option maxRecDepth 16384

noncomputable section

namespace Cert.KernelIdeal.GcnValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)
open Cert.ReferenceIdeal.ReadP (val_main_v3 val_main_v6 val_main_v16 val_main_v38 val_main_v44)
open Cert.KernelIdeal.GcnHost

variable (m : (ℓ : Loc nD τ sig) → Buf (Elt Ideal) ℓ) (ρ : Dev nD → PrngReg) (c : Dev nD)

/-- The scale column: the reference's scale vector of the edge array, laid out 100000 x 1. -/
abbrev Dc : S100000x1.Idx → EReal :=
  shapeCast S100000x1 (val_main_v16 (F := Ideal) (m ((c : Thread nD τ).loc main_arg1))) Facts₀.shapeCasts_S100000_S100000x1
/-- The first bias as a one-row matrix. -/
abbrev B1c : S1x16.Idx → EReal := shapeCast S1x16 (m ((c : Thread nD τ).loc main_arg3)) Facts₀.shapeCasts_S16_S1x16
/-- The second bias as a one-row matrix. -/
abbrev B2c : S1x64.Idx → EReal := shapeCast S1x64 (m ((c : Thread nD τ).loc main_arg5)) Facts₀.shapeCasts_S64_S1x64
/-- The target-index column and the wrapped source-index column. -/
abbrev tiv : S3300000x1.Idx → BitVec 32 := val_main_v44 (F := Ideal) (m ((c : Thread nD τ).loc main_arg1))
abbrev siv : S3300000x1.Idx → BitVec 32 := val_main_v38 (F := Ideal) (m ((c : Thread nD τ).loc main_arg1))
/-- Region 0's result. -/
abbrev H1 : S100000x16.Idx → EReal :=
  Gcn.G0 (m ((c : Thread nD τ).loc main_arg0)) (m ((c : Thread nD τ).loc main_arg2)) (Dc m c)
/-- The first aggregate: region 0's rows gathered along the edges and summed into their targets. -/
abbrev A1 : S100000x16.Idx → EReal :=
  Host.scatterAdd scatter_S100000x16_S3300000x1_S3300000x16_1_0_0_1
    (broadcastInDim S100000x16 ![] Facts₀.bcast_S_S100000x16 (constant (F := Ideal) S_ .f32 0x00000000#32))
    (tiv m c) (Host.gather gather_S100000x16_S3300000x1_S3300000x16_1_0_n_n_0_1_116 (H1 m c) (siv m c))
/-- Region 1's result. -/
abbrev H2 : S100000x64.Idx → EReal := Gcn.G1 (A1 m c) (Dc m c) (B1c m c) (m ((c : Thread nD τ).loc main_arg4))
/-- The second aggregate. -/
abbrev A2 : S100000x64.Idx → EReal :=
  Host.scatterAdd scatter_S100000x64_S3300000x1_S3300000x64_1_0_0_1
    (broadcastInDim S100000x64 ![] Facts₀.bcast_S_S100000x64 (constant (F := Ideal) S_ .f32 0x00000000#32))
    (tiv m c) (Host.gather gather_S100000x64_S3300000x1_S3300000x64_1_0_n_n_0_1_164 (H2 m c) (siv m c))

/-! ## Entering region 0 -/

theorem w3_arg0 : W3 m ρ c (Proc.devRef .tc main_arg0) = m ((c : Thread nD τ).loc main_arg0) := pre_arg0 (W0 m ρ c)
theorem w3_arg2 : W3 m ρ c (Proc.devRef .tc main_arg2) = m ((c : Thread nD τ).loc main_arg2) := pre_arg2 (W0 m ρ c)
theorem w3_arg4 : W3 m ρ c (Proc.devRef .tc main_arg4) = m ((c : Thread nD τ).loc main_arg4) := pre_arg4 (W0 m ρ c)
theorem w3_v3 : W3 m ρ c (Proc.devRef .tc main_v3) = val_main_v3 (F := Ideal) (m ((c : Thread nD τ).loc main_arg1)) := pre_v3 (W0 m ρ c)
theorem w3_v6 : W3 m ρ c (Proc.devRef .tc main_v6) = val_main_v6 (F := Ideal) (m ((c : Thread nD τ).loc main_arg1)) := pre_v6 (W0 m ρ c)
theorem w3_v17 : W3 m ρ c (Proc.devRef .tc main_v17) = Dc m c := pre_v17 (W0 m ρ c)
theorem w3_v18 : W3 m ρ c (Proc.devRef .tc main_v18) = B1c m c := pre_v18 (W0 m ρ c)
theorem w3_v19 : W3 m ρ c (Proc.devRef .tc main_v19) = B2c m c := pre_v19 (W0 m ρ c)

/-! ## Leaving region 0 -/

theorem w4_v20 : W4 m ρ c (Proc.devRef .tc main_v20) = H1 m c := by
  refine (W4_arr m ρ c 3).trans ((GcnBlocks0.final (V3 m ρ) c).trans ?_)
  show Gcn.G0 (W3 m ρ c (Proc.devRef .tc main_arg0)) (W3 m ρ c (Proc.devRef .tc main_arg2)) (W3 m ρ c (Proc.devRef .tc main_v17)) = _
  rw [w3_arg0, w3_arg2, w3_v17]

theorem w4_v17 : W4 m ρ c (Proc.devRef .tc main_v17) = Dc m c :=
  (W4_arr m ρ c 2).trans (((dat0 (V3 m ρ) c).arrAt_in 2 rfl _).trans ((A_eq0 (V3 m ρ) c 2).trans (w3_v17 m ρ c)))

theorem w4_v3 : W4 m ρ c (Proc.devRef .tc main_v3) = val_main_v3 (F := Ideal) (m ((c : Thread nD τ).loc main_arg1)) :=
  (W4_of_ne m ρ c main_v3 (by decide)).trans (w3_v3 m ρ c)
theorem w4_v6 : W4 m ρ c (Proc.devRef .tc main_v6) = val_main_v6 (F := Ideal) (m ((c : Thread nD τ).loc main_arg1)) :=
  (W4_of_ne m ρ c main_v6 (by decide)).trans (w3_v6 m ρ c)
theorem w4_v18 : W4 m ρ c (Proc.devRef .tc main_v18) = B1c m c := (W4_of_ne m ρ c main_v18 (by decide)).trans (w3_v18 m ρ c)
theorem w4_v19 : W4 m ρ c (Proc.devRef .tc main_v19) = B2c m c := (W4_of_ne m ρ c main_v19 (by decide)).trans (w3_v19 m ρ c)
theorem w4_arg4 : W4 m ρ c (Proc.devRef .tc main_arg4) = m ((c : Thread nD τ).loc main_arg4) :=
  (W4_of_ne m ρ c main_arg4 (by decide)).trans (w3_arg4 m ρ c)

/-! ## Entering region 1 -/

theorem w5_v30 : W5 m ρ c (Proc.devRef .tc main_v30) = A1 m c := by
  show after (hostOps1 (F := Ideal)) (W4 m ρ c) (Proc.devRef .tc main_v30) = _
  rw [s3_v30 (W4 m ρ c), w4_v6, w4_v20, w4_v3, tgtCol_ref, wrapCol_ref]
theorem w5_v17 : W5 m ρ c (Proc.devRef .tc main_v17) = Dc m c := (s3_v17 (W4 m ρ c)).trans (w4_v17 m ρ c)
theorem w5_v18 : W5 m ρ c (Proc.devRef .tc main_v18) = B1c m c := (s3_v18 (W4 m ρ c)).trans (w4_v18 m ρ c)
theorem w5_v19 : W5 m ρ c (Proc.devRef .tc main_v19) = B2c m c := (s3_v19 (W4 m ρ c)).trans (w4_v19 m ρ c)
theorem w5_arg4 : W5 m ρ c (Proc.devRef .tc main_arg4) = m ((c : Thread nD τ).loc main_arg4) := (s3_arg4 (W4 m ρ c)).trans (w4_arg4 m ρ c)
theorem w5_v3 : W5 m ρ c (Proc.devRef .tc main_v3) = val_main_v3 (F := Ideal) (m ((c : Thread nD τ).loc main_arg1)) := (s3_v3 (W4 m ρ c)).trans (w4_v3 m ρ c)
theorem w5_v6 : W5 m ρ c (Proc.devRef .tc main_v6) = val_main_v6 (F := Ideal) (m ((c : Thread nD τ).loc main_arg1)) := (s3_v6 (W4 m ρ c)).trans (w4_v6 m ρ c)

/-! ## Leaving region 1 -/

theorem w6_v31 : W6 m ρ c (Proc.devRef .tc main_v31) = H2 m c := by
  refine (W6_arr m ρ c 4).trans ((GcnBlocks1.final (V5 m ρ) c).trans ?_)
  show Gcn.G1 (W5 m ρ c (Proc.devRef .tc main_v30)) (W5 m ρ c (Proc.devRef .tc main_v17)) (W5 m ρ c (Proc.devRef .tc main_v18)) (W5 m ρ c (Proc.devRef .tc main_arg4)) = _
  rw [w5_v30, w5_v17, w5_v18, w5_arg4]

theorem w6_v17 : W6 m ρ c (Proc.devRef .tc main_v17) = Dc m c :=
  (W6_arr m ρ c 1).trans (((dat1 (V5 m ρ) c).arrAt_in 1 rfl _).trans ((A_eq1 (V5 m ρ) c 1).trans (w5_v17 m ρ c)))
theorem w6_v3 : W6 m ρ c (Proc.devRef .tc main_v3) = val_main_v3 (F := Ideal) (m ((c : Thread nD τ).loc main_arg1)) :=
  (W6_of_ne m ρ c main_v3 (by decide)).trans (w5_v3 m ρ c)
theorem w6_v6 : W6 m ρ c (Proc.devRef .tc main_v6) = val_main_v6 (F := Ideal) (m ((c : Thread nD τ).loc main_arg1)) :=
  (W6_of_ne m ρ c main_v6 (by decide)).trans (w5_v6 m ρ c)
theorem w6_v19 : W6 m ρ c (Proc.devRef .tc main_v19) = B2c m c := (W6_of_ne m ρ c main_v19 (by decide)).trans (w5_v19 m ρ c)

/-! ## Entering region 2 -/

theorem w7_v41 : W7 m ρ c (Proc.devRef .tc main_v41) = A2 m c := by
  show after (hostOps2 (F := Ideal)) (W6 m ρ c) (Proc.devRef .tc main_v41) = _
  rw [s4_v41 (W6 m ρ c), w6_v6, w6_v31, w6_v3, tgtCol_ref, wrapCol_ref]
theorem w7_v17 : W7 m ρ c (Proc.devRef .tc main_v17) = Dc m c := (s4_v17 (W6 m ρ c)).trans (w6_v17 m ρ c)
theorem w7_v19 : W7 m ρ c (Proc.devRef .tc main_v19) = B2c m c := (s4_v19 (W6 m ρ c)).trans (w6_v19 m ρ c)

/-! ## The result -/

theorem w8_v42 : W8 m ρ c (Proc.devRef .tc main_v42) = Gcn.G2 (A2 m c) (Dc m c) (B2c m c) := by
  refine (W8_arr m ρ c 3).trans ((GcnBlocks2.final (V7 m ρ) c).trans ?_)
  show Gcn.G2 (W7 m ρ c (Proc.devRef .tc main_v41)) (W7 m ρ c (Proc.devRef .tc main_v17)) (W7 m ρ c (Proc.devRef .tc main_v19)) = _
  rw [w7_v41, w7_v17, w7_v19]

/-- A broadcast of the zero constant is zero everywhere. -/
theorem zeros_apply {s : Shape} (h : S_.BroadcastsInDim s (![] : Fin 0 → Fin s.rank)) (i : s.Idx) :
    broadcastInDim s ![] h (constant (F := Ideal) S_ .f32 0x00000000#32) i = 0 :=
  Ideal.ofBits_zero_f32

/-- THE RESULT ARRAY of the idealized kernel program is the scaled form of the two layers, of the launch contents of the
    arguments. -/
theorem out_eq : W8 m ρ c (Proc.devRef .tc main_v42)
    = Gcn.arr2 (Gcn.outK (m ((c : Thread nD τ).loc main_arg0)) (m ((c : Thread nD τ).loc main_arg2)) (m ((c : Thread nD τ).loc main_arg3))
        (m ((c : Thread nD τ).loc main_arg4)) (m ((c : Thread nD τ).loc main_arg5))
        (val_main_v16 (F := Ideal) (m ((c : Thread nD τ).loc main_arg1))) (tiv m c) (siv m c)) := by
  rw [w8_v42]
  funext i
  obtain ⟨n, p, rfl⟩ : ∃ (n : Fin 100000) (p : Fin 64), i = ix2 n p := ⟨i 0, i 1, eq_ix2 i⟩
  rw [Gcn.arr2_ix2]
  refine Gcn.kernel_chain _ _ _ _ _ _ (tiv m c) (siv m c) (Dc m c) (B1c m c) (B2c m c) (A1 m c) (A2 m c) ?_ ?_ ?_ ?_ ?_ n p
  · exact fun n => LibColumns.shapeCast_a_a1_apply _ _ n 0
  · exact fun k => shapeCast_a_1a_apply _ _ 0 k
  · exact fun p => shapeCast_a_1a_apply _ _ 0 p
  · exact fun n f => Gcn.seg_of_scatter_gather Facts₀.gather_S100000x16_S3300000x1_S3300000x16_1_0_n_n_0_1_116_wf
      Facts₀.scatter_S100000x16_S3300000x1_S3300000x16_1_0_0_1_wf _ (tiv m c) (siv m c) (H1 m c) (zeros_apply _) n f
  · exact fun n p => Gcn.seg_of_scatter_gather Facts₀.gather_S100000x64_S3300000x1_S3300000x64_1_0_n_n_0_1_164_wf
      Facts₀.scatter_S100000x64_S3300000x1_S3300000x64_1_0_0_1_wf _ (tiv m c) (siv m c) (H2 m c) (zeros_apply _) n p

end Cert.KernelIdeal.GcnValue

end
-- ==== Proof.GcnBridge.lean ====
/-
  The scaled form and the edge-normalised form of the two graph-convolution layers agree on real data.

  The one algebraic fact: for real a(e), b(e), a real t, and c(e) = t on every edge e that satisfies P,
      (sum over e with P e of a(e) * b(e)) * t = sum over e with P e of a(e) * (b(e) * c(e)).
  On the extended reals a factor may not in general be moved across a sum (the product does not distribute over a sum that
  contains both infinities), but every term here is the coercion of a real, a finite sum of coercions is the coercion of the
  real sum, and over the reals this is `Finset.sum_mul` and associativity.

  Layer 1: a(e) = (x w1)[src e, f], b(e) = d[src e], c(e) = d[tgt e], t = d[n]; an edge that points at n has tgt e = n.
  So the scaled sum times d[n] is the weighted sum, and the two first-layer outputs are the same function. Layer 2 is the
  same fact with a(e) = (h w2)[src e, p], which is real because h is: a maximum of 0 and a real (a finite sum of reals times
  a real, plus a real bias). The outputs are then the logistic function of equal arguments.
-/
import proofs.«161874_j27427661152768_2_alg».proof.Proof.GcnSpec
import proofs.«161874_j27427661152768_2_alg».proof.Proof.LibMoments
import Mathlib.Tactic

noncomputable section

namespace Gcn

open Idealize.ShloMosaic Idealize.ShloMosaic.ValueIdx Cert.LibMoments
open scoped BigOperators

/-! ## Moving a real factor across a conditional sum of reals -/

/-- For real `a e`, `b e` and a real `t`, if `c e = t` wherever `P e` holds then
    `(∑ e, if P e then a e * b e else 0) * t = ∑ e, if P e then a e * (b e * c e) else 0`. -/
theorem seg_scale {ι : Type*} [Fintype ι] (P : ι → Prop) [DecidablePred P] (a b c : ι → EReal) (t : EReal)
    (ha : ∀ e, IsReal (a e)) (hb : ∀ e, IsReal (b e)) (ht : IsReal t) (hc : ∀ e, P e → c e = t) :
    (∑ e, if P e then a e * b e else 0) * t = ∑ e, if P e then a e * (b e * c e) else 0 := by
  obtain ⟨r, rfl⟩ := ht
  choose a' ha' using ha
  choose b' hb' using hb
  have hL : ∀ e, (if P e then a e * b e else (0 : EReal))
      = (((if P e then a' e * b' e else 0 : ℝ)) : EReal) := by
    intro e
    by_cases h : P e
    · rw [if_pos h, if_pos h, ha', hb', EReal.coe_mul]
    · rw [if_neg h, if_neg h, EReal.coe_zero]
  have hR : ∀ e, (if P e then a e * (b e * c e) else (0 : EReal))
      = ((((if P e then a' e * b' e else 0 : ℝ)) * r : ℝ) : EReal) := by
    intro e
    by_cases h : P e
    · rw [if_pos h, if_pos h, hc e h, ha', hb', ← EReal.coe_mul, ← EReal.coe_mul, mul_assoc]
    · rw [if_neg h, if_neg h, zero_mul, EReal.coe_zero]
  rw [Finset.sum_congr rfl (fun e _ => hL e), Finset.sum_congr rfl (fun e _ => hR e), coe_fintype_sum,
    coe_fintype_sum, ← EReal.coe_mul, Finset.sum_mul]

/-! ## Realness of the pieces -/

/-- A matrix product of real matrices is real at every entry. -/
theorem mm_real {M K P : Nat} (A : (⟨2, ![M, K]⟩ : Shape).Idx → EReal) (B : (⟨2, ![K, P]⟩ : Shape).Idx → EReal)
    (hA : ∀ i, IsReal (A i)) (hB : ∀ i, IsReal (B i)) (r : Fin M) (c : Fin P) : IsReal (mm A B r c) := by
  unfold mm
  exact IsReal.fintype_sum _ fun k => (hA _).mul (hB _)

/-- The sum over the edges pointing at a node of entries of a real matrix is real. -/
theorem seg_real {F : Nat} (ti si : IVec ⟨2, ![3300000, 1]⟩ 32) (M : (⟨2, ![100000, F]⟩ : Shape).Idx → EReal)
    (hM : ∀ i, IsReal (M i)) (n : Fin 100000) (f : Fin F) : IsReal (seg ti si M n f) := by
  unfold seg
  refine IsReal.fintype_sum _ fun e => ?_
  by_cases h : (ti (ix2 e (0 : Fin 1))).toInt = (n.val : ℤ)
  · rw [if_pos h]; exact hM _
  · rw [if_neg h]; exact IsReal.zero

/-- An array built from a real-valued function of a row and a column is real. -/
theorem arr2_real {a b : Nat} (g : Fin a → Fin b → EReal) (hg : ∀ p q, IsReal (g p q)) : ∀ i, IsReal (arr2 g i) :=
  fun i => hg (i 0) (i 1)

section

variable (x : (⟨2, ![100000, 128]⟩ : Shape).Idx → EReal) (w1 : (⟨2, ![128, 16]⟩ : Shape).Idx → EReal)
  (b1 : (⟨1, ![16]⟩ : Shape).Idx → EReal) (w2 : (⟨2, ![16, 64]⟩ : Shape).Idx → EReal) (b2 : (⟨1, ![64]⟩ : Shape).Idx → EReal)
  (d : (⟨1, ![100000]⟩ : Shape).Idx → EReal) (ti si ci : IVec ⟨2, ![3300000, 1]⟩ 32)

/-- Layer 1's output in the scaled form is real. -/
theorem hk_real (hx : ∀ i, IsReal (x i)) (hw1 : ∀ i, IsReal (w1 i)) (hb1 : ∀ i, IsReal (b1 i)) (hd : ∀ i, IsReal (d i))
    (n : Fin 100000) (f : Fin 16) : IsReal (hk x w1 b1 d ti si n f) := by
  unfold hk a1k
  refine IsReal.max (((seg_real ti si _ (arr2_real _ fun m g => ?_) n f).mul (hd _)).add (hb1 _)) IsReal.zero
  unfold h1s
  exact (mm_real x w1 hx hw1 m g).mul (hd _)

/-! ## One layer -/

/-- For a real matrix `M`: the sum over the edges pointing at `n` of the rows of `M` scaled by `d`, scaled by `d[n]`,
    is the sum over those edges of the rows of `M` times the edge weights. -/
theorem layer_scale {F : Nat} (M : Fin 100000 → Fin F → EReal) (hM : ∀ m f, IsReal (M m f)) (hd : ∀ i, IsReal (d i))
    (hci : ∀ (e : Fin 3300000) (n : Fin 100000), (ti (ix2 e (0 : Fin 1))).toInt = (n.val : ℤ) → src ci e = n)
    (n : Fin 100000) (f : Fin F) :
    seg ti si (arr2 fun m g => M m g * d (ix1 m)) n f * d (ix1 n)
      = ∑ e : Fin 3300000, if (ti (ix2 e (0 : Fin 1))).toInt = (n.val : ℤ)
          then M (src si e) f * nrm d si ci e else 0 :=
  seg_scale (fun e : Fin 3300000 => (ti (ix2 e (0 : Fin 1))).toInt = (n.val : ℤ))
    (fun e => M (src si e) f) (fun e => d (ix1 (src si e))) (fun e => d (ix1 (src ci e))) (d (ix1 n))
    (fun e => hM _ _) (fun e => hd _) (hd _) (fun e h => by rw [hci e n h])

/-! ## The two layers and the outputs -/

/-- Layer 1: the scaled sum times `d[n]` is the weighted sum. -/
theorem a1k_mul_eq_a1r (hx : ∀ i, IsReal (x i)) (hw1 : ∀ i, IsReal (w1 i)) (hd : ∀ i, IsReal (d i))
    (hci : ∀ (e : Fin 3300000) (n : Fin 100000), (ti (ix2 e (0 : Fin 1))).toInt = (n.val : ℤ) → src ci e = n)
    (n : Fin 100000) (f : Fin 16) :
    a1k x w1 d ti si n f * d (ix1 n) = a1r x w1 d ti si ci n f :=
  layer_scale d ti si ci (fun m g => mm x w1 m g) (fun m g => mm_real x w1 hx hw1 m g) hd hci n f

/-- The two first-layer outputs are the same function. -/
theorem hk_eq_hr (hx : ∀ i, IsReal (x i)) (hw1 : ∀ i, IsReal (w1 i)) (hd : ∀ i, IsReal (d i))
    (hci : ∀ (e : Fin 3300000) (n : Fin 100000), (ti (ix2 e (0 : Fin 1))).toInt = (n.val : ℤ) → src ci e = n) :
    hk x w1 b1 d ti si = hr x w1 b1 d ti si ci := by
  funext n f
  unfold hk hr
  rw [a1k_mul_eq_a1r x w1 d ti si ci hx hw1 hd hci n f]

/-- Layer 2: the scaled sum times `d[n]` is the weighted sum. -/
theorem a2k_mul_eq_a2r (hx : ∀ i, IsReal (x i)) (hw1 : ∀ i, IsReal (w1 i)) (hb1 : ∀ i, IsReal (b1 i))
    (hw2 : ∀ i, IsReal (w2 i)) (hd : ∀ i, IsReal (d i))
    (hci : ∀ (e : Fin 3300000) (n : Fin 100000), (ti (ix2 e (0 : Fin 1))).toInt = (n.val : ℤ) → src ci e = n)
    (n : Fin 100000) (p : Fin 64) :
    a2k x w1 b1 w2 d ti si n p * d (ix1 n) = a2r x w1 b1 w2 d ti si ci n p := by
  unfold a2r
  rw [← hk_eq_hr x w1 b1 d ti si ci hx hw1 hd hci]
  exact layer_scale d ti si ci (fun m q => mm (arr2 (hk x w1 b1 d ti si)) w2 m q)
    (fun m q => mm_real _ w2 (arr2_real _ (hk_real x w1 b1 d ti si hx hw1 hb1 hd)) hw2 m q) hd hci n p

end

/-- On real data, with the clamped target of every edge that points at a node being that node, the scaled form and the
    edge-normalised form of the network give the same output at every node and feature. -/
theorem outK_eq_outR
    (x : (⟨2, ![100000, 128]⟩ : Shape).Idx → EReal) (w1 : (⟨2, ![128, 16]⟩ : Shape).Idx → EReal)
    (b1 : (⟨1, ![16]⟩ : Shape).Idx → EReal) (w2 : (⟨2, ![16, 64]⟩ : Shape).Idx → EReal) (b2 : (⟨1, ![64]⟩ : Shape).Idx → EReal)
    (d : (⟨1, ![100000]⟩ : Shape).Idx → EReal) (ti si ci : IVec ⟨2, ![3300000, 1]⟩ 32)
    (hx : ∀ i, IsReal (x i)) (hw1 : ∀ i, IsReal (w1 i)) (hb1 : ∀ i, IsReal (b1 i)) (hw2 : ∀ i, IsReal (w2 i))
    (hd : ∀ i, IsReal (d i))
    (hci : ∀ (e : Fin 3300000) (n : Fin 100000), (ti (ix2 e (0 : Fin 1))).toInt = (n.val : ℤ) → src ci e = n)
    (n : Fin 100000) (p : Fin 64) :
    outK x w1 b1 w2 b2 d ti si n p = outR x w1 b1 w2 b2 d ti si ci n p := by
  unfold outK outR
  rw [a2k_mul_eq_a2r x w1 b1 w2 d ti si ci hx hw1 hb1 hw2 hd hci n p]

end Gcn

end
-- ==== Proof.FiniteArgs.lean ====
/-
  From the printed input condition to "every float argument entry is a real".

  The condition is the conjunction (`and` of one-bit words) of five tests, one per float argument: "every entry x of the
  argument satisfies |x| < +infinity", each test a reduction by `and` over all axes of the entrywise comparison. The
  conjunction is 1 exactly when each test is 1; a reduction by `and` to a single result is 1 only if every entry is 1;
  and on the extended reals |x| = max x (-x) is below +infinity exactly when x is neither +infinity nor -infinity, that is
  when x is (the coercion of) a real. The bit pattern 0x7F800000 denotes +infinity.
-/
import proofs.«161874_j27427661152768_2_alg».proof.Pre_finite_inputs
import proofs.«161874_j27427661152768_2_alg».proof.Proof.Gen.Pre_finite_inputs
import Idealize.ShloMosaic.Lib.ReduceAll
import Idealize.ShloMosaic.Lib.ValueIdx
import proofs.«161874_j27427661152768_2_alg».proof.Proof.LibMoments

namespace Cert.FiniteArgs

open Idealize.ShloMosaic Cert.LibMoments Cert.Pre_finite_inputs

/-- The shape with no axes has exactly one index. -/
instance : Subsingleton S_.Idx := ⟨fun a b => funext fun d => d.elim0⟩

/-- An extended real whose absolute value `max x (-x)` compares below the value of the pattern 0x7F800000 (which is
    +infinity) is a real. -/
theorem real_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine IsReal.of_ne (ne_of_lt hlt.1) ?_
  intro hb
  subst hb
  simp at hlt

/-- If the input condition holds then every entry of each of the five float arguments is a real. -/
theorem real_of_pre
    (a0 : FVec Ideal Cert.Pre_finite_inputs.S100000x128 .f32) (a1 : IVec Cert.Pre_finite_inputs.S2x3200000 32)
    (a2 : FVec Ideal Cert.Pre_finite_inputs.S128x16 .f32) (a3 : FVec Ideal Cert.Pre_finite_inputs.S16 .f32)
    (a4 : FVec Ideal Cert.Pre_finite_inputs.S16x64 .f32) (a5 : FVec Ideal Cert.Pre_finite_inputs.S64 .f32)
    (h : Cert.Pre_finite_inputs.fn (F := Ideal) a0 a1 a2 a3 a4 a5 = (fun _ => 1#1)) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e2⟩, e3⟩, e4⟩, e5⟩ := h0
  exact ⟨fun i => real_of_abs_lt_inf _ (Host.reduce_andi_all _ _ _ _ _ e0 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i),
    fun i => real_of_abs_lt_inf _ (Host.reduce_andi_all _ _ _ _ _ e5 i)⟩

end Cert.FiniteArgs
-- ==== Proof.lean ====
/-
  The certificate of a two-layer graph convolution network: a kernel program of three pipelined regions among host
  gathers and scatter-adds, against a plain reference.

  Both programs compute, from node features x, an edge list, weights W1, W2 and biases b1, b2:
    deg = number of edges (with one self loop per node) into each node,  d = 1 / sqrt(deg) where deg > 0 and 0 elsewhere,
    h   = relu( sum over edges e into n of d[src e] d[n] (x W1)[src e] + b1 ),
    out = logistic( sum over edges e into n of d[src e] d[n] (h W2)[src e] + b2 ).
  The reference multiplies every gathered row by its edge's weight d[src e] d[tgt e] before the sum. The kernel program
  scales the rows by d before the gather and scales the sum by d[n] after it, in the pipelined regions, and leaves the gather
  and the scatter-add to the host. On the extended reals the two agree once every entry is a real number — which the
  precondition (every float input finite) gives, the scale d being a real by construction — because for an edge into n the
  target is n and a real factor moves across a finite sum of reals. A change of float format is the identity at the ideal
  values, and the kernel's matrix products into zero accumulators are the reference's plain products.

  The three frames: the kernel's two programs have their frame whole from the pipeline's proof data; the reference's frame is
  its run with the result dropped. No operation of the kernel was rewritten by the idealization, so `preserves` is trivial.
-/
import proofs.«161874_j27427661152768_2_alg».proof.Defs
import proofs.«161874_j27427661152768_2_alg».proof.Proof.Gen.Kernel
import proofs.«161874_j27427661152768_2_alg».proof.Proof.Gen.Kernel.Skeleton
import proofs.«161874_j27427661152768_2_alg».proof.Proof.Gen.Kernel.Launch
import proofs.«161874_j27427661152768_2_alg».proof.Proof.Gen.Kernel.Points
import proofs.«161874_j27427661152768_2_alg».proof.Proof.Gen.Kernel.Frame
import proofs.«161874_j27427661152768_2_alg».proof.Proof.Gen.KernelIdeal
import proofs.«161874_j27427661152768_2_alg».proof.Proof.Gen.KernelIdeal.Skeleton
import proofs.«161874_j27427661152768_2_alg».proof.Proof.Gen.KernelIdeal.Launch
import proofs.«161874_j27427661152768_2_alg».proof.Proof.Gen.KernelIdeal.Points
import proofs.«161874_j27427661152768_2_alg».proof.Proof.Gen.KernelIdeal.Frame
import proofs.«161874_j27427661152768_2_alg».proof.Proof.Gen.ReferenceIdeal
import proofs.«161874_j27427661152768_2_alg».proof.Proof.Gen.Pre_finite_inputs
import proofs.«161874_j27427661152768_2_alg».proof.Proof.RefRun
import proofs.«161874_j27427661152768_2_alg».proof.Proof.RefRead
import proofs.«161874_j27427661152768_2_alg».proof.Proof.RefValue
import proofs.«161874_j27427661152768_2_alg».proof.Proof.KRun
import proofs.«161874_j27427661152768_2_alg».proof.Proof.KValue
import proofs.«161874_j27427661152768_2_alg».proof.Proof.GcnBridge
import proofs.«161874_j27427661152768_2_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program's frame, at the word-level instance. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the scaled form of the two layers of the arguments: the kernel program by following its buffers
    through the three regions, the reference because its edge-normalised form is the scaled form on real data. -/
theorem algebraic : Cert.algebraic_KernelIdeal_ReferenceIdeal := by
  intro m ρ m' ρ' hpre hagree
  refine ⟨fun c => Gcn.arr2 (Gcn.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.ReferenceIdeal.ReadP.val_main_v16 (F := Ideal) (m ((c.tc : Thread Cert.KernelIdeal.nD Cert.KernelIdeal.τ).loc Cert.KernelIdeal.main_arg1)))
      (Cert.ReferenceIdeal.ReadP.val_main_v44 (F := Ideal) (m ((c.tc : Thread Cert.KernelIdeal.nD Cert.KernelIdeal.τ).loc Cert.KernelIdeal.main_arg1)))
      (Cert.ReferenceIdeal.ReadP.val_main_v38 (F := Ideal) (m ((c.tc : Thread Cert.KernelIdeal.nD Cert.KernelIdeal.τ).loc Cert.KernelIdeal.main_arg1)))), ?_, ?_⟩
  · exact (θ_run Cert.KernelIdeal.defs _ _).mono
      (fun r h c => ⟨(h c).1.trans (Cert.KernelIdeal.GcnValue.out_eq m ρ c), (h c).2⟩)
      (Cert.KernelIdeal.GcnRun.run_out (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hw1, hb1, hw2, hb2⟩ := Cert.FiniteArgs.real_of_pre _ _ _ _ _ _ (hpre c)
    rw [Cert.ReferenceIdeal.ReadP.val_main_v72_eq, (hagree c).1, (hagree c).2.1, (hagree c).2.2.1, (hagree c).2.2.2.1,
      (hagree c).2.2.2.2.1, (hagree c).2.2.2.2.2]
    funext i
    obtain ⟨n, p, rfl⟩ : ∃ (n : Fin 100000) (p : Fin 64), i = ix2 n p := ⟨i 0, i 1, eq_ix2 i⟩
    rw [Cert.ReferenceIdeal.RefValue.ref_out]
    beta_reduce
    rw [Gcn.arr2_ix2]
    exact (Gcn.outK_eq_outR _ _ _ _ _ _ _ _ _ hx hw1 hb1 hw2 (Cert.ReferenceIdeal.RefValue.dis_real _)
      (Cert.ReferenceIdeal.RefValue.tgt_of_hit _) n p).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
